-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x64 : Shape := ⟨2, ![1024, 64]⟩
abbrev S64 : Shape := ⟨1, ![64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S1024x64 .f32) (main_arg8 : FVec F S64 .f32) (main_v33 : IVec S_ 1) : IVec S_ 1 :=
  let main_v34 : FVec F S1024x64 .f32 := Host.absf main_arg7
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S1024x64 .f32) (main_arg6 : FVec F S64 .f32) (main_arg7 : FVec F S1024x64 .f32) (main_arg8 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1024x64 .f32 := Host.absf main_arg5
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S4x2048x1024 .f32) (main_arg2 : FVec F S4x2048x1024 .f32) (main_arg3 : FVec F S1024x64 .f32) (main_arg4 : FVec F S64 .f32) (main_arg5 : FVec F S1024x64 .f32) (main_arg6 : FVec F S64 .f32) (main_arg7 : FVec F S1024x64 .f32) (main_arg8 : FVec F S64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x64 : Shape := ⟨2, ![1024, 64]⟩
abbrev S64 : Shape := ⟨1, ![64]⟩
abbrev S8192x1024 : Shape := ⟨2, ![8192, 1024]⟩
abbrev S8192x64 : Shape := ⟨2, ![8192, 64]⟩
abbrev S1024x1024 : Shape := ⟨2, ![1024, 1024]⟩
abbrev S1x64 : Shape := ⟨2, ![1, 64]⟩
abbrev S4x2048x64 : Shape := ⟨3, ![4, 2048, 64]⟩
abbrev S1x1024x64 : Shape := ⟨3, ![1, 1024, 64]⟩
abbrev S1x2048x64 : Shape := ⟨3, ![1, 2048, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 19
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x64, .f32⟩
  | .hbm, ⟨8, _⟩ => ⟨S64, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x64, .bf16⟩
  | .hbm, ⟨13, _⟩ => ⟨S8192x64, .bf16⟩
  | .hbm, ⟨14, _⟩ => ⟨S8192x64, .bf16⟩
  | .hbm, ⟨15, _⟩ => ⟨S4x2048x64, .bf16⟩
  | .hbm, ⟨16, _⟩ => ⟨S4x2048x64, .bf16⟩
  | .hbm, ⟨17, _⟩ => ⟨S4x2048x64, .bf16⟩
  | .hbm, ⟨18, _⟩ => ⟨S4x2048x64, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x64, .f32⟩
  | .local _ .vmem, ⟨7, _⟩ => ⟨S64, .f32⟩
  | .local _ .vmem, ⟨8, _⟩ => ⟨S1024x64, .f32⟩
  | .local _ .vmem, ⟨9, _⟩ => ⟨S64, .f32⟩
  | .local _ .vmem, ⟨10, _⟩ => ⟨S1024x64, .f32⟩
  | .local _ .vmem, ⟨11, _⟩ => ⟨S64, .f32⟩
  | .local _ .vmem, ⟨12, _⟩ => ⟨S1024x64, .bf16⟩
  | .local _ .vmem, ⟨13, _⟩ => ⟨S1024x64, .bf16⟩
  | .local _ .vmem, ⟨14, _⟩ => ⟨S1024x64, .bf16⟩
  | .local _ .vmem, ⟨15, _⟩ => ⟨S1024x64, .bf16⟩
  | .local _ .vmem, ⟨16, _⟩ => ⟨S1024x64, .bf16⟩
  | .local _ .vmem, ⟨17, _⟩ => ⟨S1024x64, .bf16⟩
  | .local _ .vmem, ⟨18, _⟩ => ⟨S1x1024x64, .bf16⟩
  | .local _ .vmem, ⟨19, _⟩ => ⟨S1x1024x64, .bf16⟩
  | .local _ .vmem, ⟨20, _⟩ => ⟨S1x2048x64, .bf16⟩
  | .local _ .vmem, ⟨21, _⟩ => ⟨S1x2048x64, .bf16⟩
  | .local _ .vmem, ⟨22, _⟩ => ⟨S1x2048x64, .bf16⟩
  | .local _ .vmem, ⟨23, _⟩ => ⟨S1x2048x64, .bf16⟩
  | .local _ .vmem, ⟨24, _⟩ => ⟨S1x1024x64, .f32⟩
  | .local _ .vmem, ⟨25, _⟩ => ⟨S1x1024x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  packedbf16_S1024x64_S1024x64_0_0 : (Rect.unit (s := S1024x64) ![0, 0] S1024x64.size inb_S1024x64_S1024x64_0_0).PackedRows (EltTy.packing .bf16)
  shapeCasts_S8192x64_S4x2048x64 : S8192x64.ShapeCasts S4x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x64 : S1024x1.Broadcasts S1024x64
  shapeCasts_S1024x64_S1x1024x64 : S1024x64.ShapeCasts S1x1024x64
  dot_S1024x1024_S1024x64_S1024x64_1_0_0_1_n_n_wf : DotDims.WF S1024x1024 S1024x64 S1024x64 [1] [0] [0] [1] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S1024x64.size a
  hwx0_5 : ∀ i : grid0.Coords, EltTy.bits .f32 = 32 ∨ (Rect.block (s := S1024x64) S1024x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x64.size a ≤ S1024x64.size a
  hwx0_7 : ∀ i : grid0.Coords, EltTy.bits .f32 = 32 ∨ (Rect.block (s := S1024x64) S1024x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x64.size a ≤ S8192x64.size a
  hwx0_9 : ∀ i : grid0.Coords, EltTy.bits .bf16 = 32 ∨ (Rect.block (s := S8192x64) S1024x64.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x64.size a ≤ S8192x64.size a
  hwx0_10 : ∀ i : grid0.Coords, EltTy.bits .bf16 = 32 ∨ (Rect.block (s := S8192x64) S1024x64.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x64.size a ≤ S8192x64.size a
  hwx0_11 : ∀ i : grid0.Coords, EltTy.bits .bf16 = 32 ∨ (Rect.block (s := S8192x64) S1024x64.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x2048x64.size a
  hwx1_0 : ∀ i : grid1.Coords, EltTy.bits .bf16 = 32 ∨ (Rect.block (s := S4x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S4x2048x64.size a
  hwx1_1 : ∀ i : grid1.Coords, EltTy.bits .bf16 = 32 ∨ (Rect.block (s := S4x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S4x2048x64.size a
  hwx1_2 : ∀ i : grid1.Coords, EltTy.bits .bf16 = 32 ∨ (Rect.block (s := S4x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x2048x64.size a
  hwx1_3 : ∀ i : grid1.Coords, EltTy.bits .f32 = 32 ∨ (Rect.block (s := S4x2048x64) S1x1024x64.size (cc1_transform_3 i) (hinb1_3 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_0) S1024x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3_1) S1024x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3_2) S1024x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v4) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x64 : Shape := ⟨2, ![1024, 64]⟩
abbrev S64 : Shape := ⟨1, ![64]⟩
abbrev S4x2048x64 : Shape := ⟨3, ![4, 2048, 64]⟩
abbrev S1x1x64 : Shape := ⟨3, ![1, 1, 64]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1024x64, .f32⟩
  | .hbm, ⟨8, _⟩ => ⟨S64, .f32⟩
  | .hbm, ⟨9, _⟩ => ⟨S4x2048x64, .f32⟩
  | .hbm, ⟨10, _⟩ => ⟨S1x1x64, .f32⟩
  | .hbm, ⟨11, _⟩ => ⟨S4x2048x64, .f32⟩
  | .hbm, ⟨12, _⟩ => ⟨S4x2048x64, .f32⟩
  | .hbm, ⟨13, _⟩ => ⟨S4x2048x64, .f32⟩
  | .hbm, ⟨14, _⟩ => ⟨S1x1x64, .f32⟩
  | .hbm, ⟨15, _⟩ => ⟨S4x2048x64, .f32⟩
  | .hbm, ⟨16, _⟩ => ⟨S4x2048x64, .f32⟩
  | .hbm, ⟨17, _⟩ => ⟨S4x2048x64, .f32⟩
  | .hbm, ⟨18, _⟩ => ⟨S1x1x64, .f32⟩
  | .hbm, ⟨19, _⟩ => ⟨S4x2048x64, .f32⟩
  | .hbm, ⟨20, _⟩ => ⟨S4x2048x64, .f32⟩
  | .hbm, ⟨21, _⟩ => ⟨S4x2048x2048, .f32⟩
  | .hbm, ⟨22, _⟩ => ⟨S_, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x2048x64_0_1_2 : S1x1x64.BroadcastsInDim S4x2048x64 (![0, 1, 2] : Fin 3 → Fin S4x2048x64.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x64_S4x2048x64_2_0_01_1_n_n_wf : DotDims.WF S4x2048x1024 S1024x64 S4x2048x64 [2] [0] [0, 1] [1] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S1024x64_S4x2048x64_2_0_01_1_n_n : DotDims S4x2048x1024 S1024x64 S4x2048x64 where
  lhsContracting := [2]
  rhsContracting := [0]
  lhsNonContracting := [0, 1]
  rhsNonContracting := [1]
  lhsBatch := []
  rhsBatch := []
  wf := dot_S4x2048x1024_S1024x64_S4x2048x64_2_0_01_1_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.KernelRun.lean ====
/-
  The idealized kernel's run with its result named.

  @main is four segments: three reshapes of the inputs, the projection call, three reshapes of the projections, the
  attention call. The contents of every unscoped buffer at each boundary are a fold through those segments from the launch
  memory; at the last boundary the result buffer holds what the attention call's write-backs leave, and every argument
  what it held at launch. The run below states exactly that of every final state.
-/
import proofs.«180054_j28321014350012_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; at the end the result buffer holds the last
    boundary's contents and every argument its launch contents. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

/-- The result buffer at the last boundary is the attention call's output array after its last point. -/
theorem result_arr (c : Dev nD) : W4 m ρ c (Proc.devRef .tc main_v7) = (dat1 (V3 m ρ) c).arrAt 3 cfg1.N :=
  W4_arr m ρ c 3

end Cert.KernelIdeal.Named

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibDense.lean ====
/-
  Dense layers read at coordinates, at the extended reals.

  A row-major `[M, K]` array times a `[K, N]` matrix into a zero accumulator, plus a length-`N` bias laid out as one row
  and repeated over the `M` rows, is at `(p, q)` the sum over `k` of `l (p, k) · W (k, q)`, plus `b q`. A length-`c`
  vector laid out as `[1, 1, c]` and repeated over two leading axes reads, at `(p, q, k)`, the vector at `k`.
-/
import proofs.«180054_j28321014350012_2_alg».proof.Proof.LibPlainDot
import Idealize.ShloMosaic.Lib.ValueLayout
import Idealize.ShloMosaic.Lib.Pipeline.Value

noncomputable section

namespace Cert.LibDense

open Idealize.ShloMosaic Idealize.ShloMosaic.ValueIdx
open scoped BigOperators

variable {α : Type}

/-- A length-`c` vector cast to `[1, 1, c]` reads, at `(u, v, k)`, the vector at `k`. -/
theorem shapeCast_c_11c_apply {c : ℕ} (x : (⟨1, ![c]⟩ : Shape).Idx → α) (h : (⟨1, ![c]⟩ : Shape).ShapeCasts ⟨3, ![1, 1, c]⟩)
    (u v : Fin 1) (k : Fin c) : shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-- A `[1, 1, c]` array broadcast to `[a, b, c]` reads, at `(p, q, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => show 0 = if (1 : ℕ) = 1 then 0 else p.val; rw [if_pos rfl]
  | ⟨1, _⟩ => show 0 = if (1 : ℕ) = 1 then 0 else q.val; rw [if_pos rfl]
  | ⟨2, _⟩ =>
    show k.val = if c = 1 then 0 else k.val
    split
    · have := k.isLt; omega
    · rfl

variable {M K N : ℕ} (d : DotDims ⟨2, ![M, K]⟩ ⟨2, ![K, N]⟩ ⟨2, ![M, N]⟩)

/-- A dense layer before its activation, at `(p, q)`. -/
theorem dense_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (q : Fin N) :
    addf (FloatOps.matmul d prec l W (constant ⟨2, ![M, N]⟩ .f32 0x00000000#32))
        (broadcastTo ⟨2, ![M, N]⟩ (shapeCast ⟨2, ![1, N]⟩ b hc) hb) (ix2 p q)
      = (∑ k : Fin K, l (ix2 p k) * W (ix2 k q)) + b (ix1 q) := by
  rw [addf_apply, Cert.LibPlainDot.matmul_plain_apply d hlc hrc hlb hrb hln hrn, broadcastTo_1b_ab_apply, shapeCast_a_1a_apply]

end Cert.LibDense

end
-- ==== Proof.Region0.lean ====
/-
  What the projection call leaves in its three output arrays.

  The call walks the 8192 rows of an [8192, 1024] array in 8 blocks of 1024 rows. At a block it multiplies the block by the
  whole [1024, 64] weight matrix from a zero accumulator and adds the bias to every row, for queries, keys and values
  alike. Entry (p, q) of a block's product depends on row p of that block only; row p of block t is row t·1024 + p of the
  array; so the blocks are the restrictions of ONE function of the whole arrays — entry (r, q) of the result is
  Σ_k x (r, k) · W (k, q) + b q — and, the 8 blocks tiling the rows, each output array ends holding that function.
-/
import proofs.«180054_j28321014350012_2_alg».proof.Proof.Gen.KernelIdeal.Frame
import proofs.«180054_j28321014350012_2_alg».proof.Proof.LibDense
import Idealize.ShloMosaic.Lib.Pipeline.Value
import Idealize.ShloMosaic.Lib.ValueIdx

set_option maxRecDepth 16384

noncomputable section

namespace Cert.KernelIdeal.Proj

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

/-- One projection as an [8192, 64] array: entry (r, q) is row r of x against column q of W, plus the bias at q. -/
def dense (x : FVec Ideal S8192x1024 .f32) (W : FVec Ideal S1024x64 .f32) (b : FVec Ideal S64 .f32) : FVec Ideal S8192x64 .bf16 :=
  fun i => (∑ k : Fin 1024, x (ix2 (⟨(i 0).val, (i 0).isLt⟩ : Fin 8192) k) * W (ix2 k (⟨(i 1).val, (i 1).isLt⟩ : Fin 64)))
    + b (ix1 (⟨(i 1).val, (i 1).isLt⟩ : Fin 64))

/-- At explicit coordinates. -/
theorem dense_ix2 (x : FVec Ideal S8192x1024 .f32) (W : FVec Ideal S1024x64 .f32) (b : FVec Ideal S64 .f32) (r : Fin 8192) (q : Fin 64) :
    dense x W b (ix2 r q) = (∑ k : Fin 1024, x (ix2 r k) * W (ix2 k q)) + b (ix1 q) := rfl

theorem hz2 : (![0, 0] : Fin 2 → Nat) = fun _ => 0 := funext fun a => by fin_cases a <;> rfl
theorem hz1 : (![0] : Fin 1 → Nat) = fun _ => 0 := funext fun a => by fin_cases a <;> rfl

/-! ## One block -/

/-- The three stores' values at (p, q): row p of the loaded block against column q of the weights, plus the bias (a change
    of float format is the identity on the extended reals). -/
theorem pay1_apply (x0 : FVec Ideal S1024x1024 .f32) (x3 : FVec Ideal S1024x64 .f32) (x6 : FVec Ideal S64 .f32)
    (p : Fin 1024) (q : Fin 64) :
    k0_pay1 (F := Ideal) x0 x3 x6 (ix2 p q) = (∑ k : Fin 1024, x0 (ix2 p k) * x3 (ix2 k q)) + x6 (ix1 q) := by
  unfold k0_pay1
  rw [shapeCast_self]
  exact Cert.LibDense.dense_apply dot_S1024x1024_S1024x64_S1024x64_1_0_0_1_n_n rfl rfl rfl rfl rfl rfl none _ _ _ _ _ p q

theorem pay2_apply (x0 : FVec Ideal S1024x1024 .f32) (x3 : FVec Ideal S1024x64 .f32) (x6 : FVec Ideal S64 .f32)
    (p : Fin 1024) (q : Fin 64) :
    k0_pay2 (F := Ideal) x0 x3 x6 (ix2 p q) = (∑ k : Fin 1024, x0 (ix2 p k) * x3 (ix2 k q)) + x6 (ix1 q) := by
  unfold k0_pay2
  rw [shapeCast_self]
  exact Cert.LibDense.dense_apply dot_S1024x1024_S1024x64_S1024x64_1_0_0_1_n_n rfl rfl rfl rfl rfl rfl none _ _ _ _ _ p q

theorem pay3_apply (x0 : FVec Ideal S1024x1024 .f32) (x3 : FVec Ideal S1024x64 .f32) (x6 : FVec Ideal S64 .f32)
    (p : Fin 1024) (q : Fin 64) :
    k0_pay3 (F := Ideal) x0 x3 x6 (ix2 p q) = (∑ k : Fin 1024, x0 (ix2 p k) * x3 (ix2 k q)) + x6 (ix1 q) := by
  unfold k0_pay3
  rw [shapeCast_self]
  exact Cert.LibDense.dense_apply dot_S1024x1024_S1024x64_S1024x64_1_0_0_1_n_n rfl rfl rfl rfl rfl rfl none _ _ _ _ _ p q

/-- A block's dense layer is the arrays', at the block's rows: when row p of the loaded block is row `e 0` of the array
    and the weights' column q and the bias's entry q are the array's column and entry `e 1`, entry (p, q) of the block's
    product plus bias is the whole projection at `e`. -/
theorem dense_of_block (X : FVec Ideal S8192x1024 .f32) (W : FVec Ideal S1024x64 .f32) (b : FVec Ideal S64 .f32)
    (x0 : FVec Ideal S1024x1024 .f32) (x3 : FVec Ideal S1024x64 .f32) (x6 : FVec Ideal S64 .f32)
    (p : Fin 1024) (q : Fin 64) (e : S8192x64.Idx)
    (h0 : ∀ k : Fin 1024, x0 (ix2 p k) = X (ix2 (⟨(e 0).val, (e 0).isLt⟩ : Fin 8192) k))
    (h3 : ∀ k : Fin 1024, x3 (ix2 k q) = W (ix2 k (⟨(e 1).val, (e 1).isLt⟩ : Fin 64)))
    (h6 : x6 (ix1 q) = b (ix1 (⟨(e 1).val, (e 1).isLt⟩ : Fin 64))) :
    (∑ k : Fin 1024, x0 (ix2 p k) * x3 (ix2 k q)) + x6 (ix1 q) = dense X W b e := by
  unfold dense
  rw [h6]
  exact congrArg (· + _) (Finset.sum_congr rfl fun k _ => by rw [h0 k, h3 k])

/-! ## Where the blocks sit -/

/-- Decided over the 8 points: the row block of every 1024-row window is the point's number and its column block the
    only one; the weights and the biases are whole at every point. -/
theorem idx_facts : ∀ t : Fin cfg0.N,
    (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ win0_4.index t (0 : Fin 1) = 0 ∧ win0_6.index t (0 : Fin 1) = 0 ∧ win0_8.index t (0 : Fin 1) = 0 :=
  (by decide +kernel : ∀ t : Fin grid0.N, _)

/-- Every row block is some point's. -/
theorem idx_onto : ∀ q0 : Fin 8, ∃ t : Fin cfg0.N,
    win0_9.index t = ![q0.val, 0] ∧ win0_10.index t = ![q0.val, 0] ∧ win0_11.index t = ![q0.val, 0] :=
  (by decide +kernel : ∀ q0 : Fin 8, ∃ t : Fin grid0.N,
    win0_9.index t = ![q0.val, 0] ∧ win0_10.index t = ![q0.val, 0] ∧ win0_11.index t = ![q0.val, 0])

variable (V : (c : Dev nD) → (b : Ref sig .tc) → Buf (Elt Ideal) ((c : Thread nD τ).loc b))

/-! ## Queries: window 9 from windows 0, 3, 4 -/

/-- What point t writes back is block t of the projection of the arrays the call finds. -/
theorem flushed9_eq (c : Dev nD) (t : Fin cfg0.N) :
    (dat0 V c).flushed 9 t = ((cfg0.win 9).blk t).view.read (Elt Ideal) (dense (V c main_v0) (V c main_arg3) (V c main_arg4)) := by
  show (cfg0.win 9).cut (grid0.coords t) ((dat0 V c).after 9 t) = _
  rw [after0_9]
  unfold out0_9
  rw [View.canon_unit_zero hz2]
  simp only [View.ld_unit_zero (S := S1024x1024) hz2, View.ld_unit_zero (S := S1024x64) hz2, View.ld_unit_zero (S := S64) hz1]
  obtain ⟨⟨eo0, eo1⟩, -, -, ⟨ex0, ex1⟩, -, -, ⟨ew0, ew1⟩, -, -, eb, -, -⟩ := idx_facts t
  funext j
  obtain ⟨p, q, rfl⟩ : ∃ (p : Fin 1024) (q : Fin 64), j = ix2 p q := ⟨j 0, j 1, eq_ix2 j⟩
  show k0_pay1 (F := Ideal) (iblk0 V c 0 t) (iblk0 V c 3 t) (iblk0 V c 4 t) (ix2 p q)
    = dense (V c main_v0) (V c main_arg3) (V c main_arg4) (((cfg0.win 9).blk t).view.emb (ix2 p q))
  refine (pay1_apply (iblk0 V c 0 t) (iblk0 V c 3 t) (iblk0 V c 4 t) p q).trans
    (dense_of_block (V c main_v0) (V c main_arg3) (V c main_arg4) (iblk0 V c 0 t) (iblk0 V c 3 t) (iblk0 V c 4 t) p q
      (((cfg0.win 9).blk t).view.emb (ix2 p q)) (fun k => ?_) (fun k => ?_) ?_)
  · show V c main_v0 (((cfg0.win 0).blk t).view.emb (ix2 p k)) = V c main_v0 (ix2 _ k)
    refine congrArg (V c main_v0) (funext fun a => Fin.ext ?_)
    match a with
    | ⟨0, _⟩ => show win0_0.index t (0 : Fin 2) * 1024 + 1 * p.val = win0_9.index t (0 : Fin 2) * 1024 + 1 * p.val; omega
    | ⟨1, _⟩ => show win0_0.index t (1 : Fin 2) * 1024 + 1 * k.val = k.val; omega
  · show V c main_arg3 (((cfg0.win 3).blk t).view.emb (ix2 k q)) = V c main_arg3 (ix2 k _)
    refine congrArg (V c main_arg3) (funext fun a => Fin.ext ?_)
    match a with
    | ⟨0, _⟩ => show win0_3.index t (0 : Fin 2) * 1024 + 1 * k.val = k.val; omega
    | ⟨1, _⟩ => show win0_3.index t (1 : Fin 2) * 64 + 1 * q.val = win0_9.index t (1 : Fin 2) * 64 + 1 * q.val; omega
  · show V c main_arg4 (((cfg0.win 4).blk t).view.emb (ix1 q)) = V c main_arg4 (ix1 _)
    refine congrArg (V c main_arg4) (funext fun a => Fin.ext ?_)
    match a with
    | ⟨0, _⟩ => show win0_4.index t (0 : Fin 1) * 64 + 1 * q.val = win0_9.index t (1 : Fin 2) * 64 + 1 * q.val; omega

/-- An index of the array is in point t's block iff each coordinate is in the block's range on its axis. -/
theorem mem_blk9 (t : Fin cfg0.N) (i : S8192x64.Idx) :
    i ∈ ((cfg0.win 9).blk t).view.set ↔ ∀ a : Fin 2, win0_9.index t a * S1024x64.size a ≤ (i a).val ∧ (i a).val < win0_9.index t a * S1024x64.size a + S1024x64.size a := by
  show i ∈ ((View.whole main_v3_0).slice (win0_9.rect t)).set ↔ _
  rw [View.set_slice_whole, Rect.mem_set_unit]
  exact Iff.rfl

/-- Row r lies in the block of the point whose row block is r / 1024. -/
theorem cover9 (i : S8192x64.Idx) : ∃ t : Fin cfg0.N, (cfg0.win 9).flush t = true ∧ i ∈ ((cfg0.win 9).blk t).view.set := by
  have hi0 : (i 0).val < 8192 := (i 0).isLt
  have hi1 : (i 1).val < 64 := (i 1).isLt
  obtain ⟨t, ht, -, -⟩ := idx_onto ⟨(i 0).val / 1024, by omega⟩
  have q0 : win0_9.index t (0 : Fin 2) = (i 0).val / 1024 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 64 ≤ (i 1).val ∧ (i 1).val < win0_9.index t (1 : Fin 2) * 64 + 64; omega

/-- The queries' array after the call. -/
theorem final9 (c : Dev nD) : (dat0 V c).arrAt 9 cfg0.N = dense (V c main_v0) (V c main_arg3) (V c main_arg4) :=
  (dat0 V c).arrAt_eq_of_cover 9 _ (fun t _ => flushed9_eq V c t) cover9

/-! ## Keys: window 10 from windows 1, 5, 6 -/

theorem flushed10_eq (c : Dev nD) (t : Fin cfg0.N) :
    (dat0 V c).flushed 10 t = ((cfg0.win 10).blk t).view.read (Elt Ideal) (dense (V c main_v1) (V c main_arg5) (V c main_arg6)) := by
  show (cfg0.win 10).cut (grid0.coords t) ((dat0 V c).after 10 t) = _
  rw [after0_10]
  unfold out0_10
  rw [View.canon_unit_zero hz2]
  simp only [View.ld_unit_zero (S := S1024x1024) hz2, View.ld_unit_zero (S := S1024x64) hz2, View.ld_unit_zero (S := S64) hz1]
  obtain ⟨-, ⟨eo0, eo1⟩, -, -, ⟨ex0, ex1⟩, -, -, ⟨ew0, ew1⟩, -, -, eb, -⟩ := idx_facts t
  funext j
  obtain ⟨p, q, rfl⟩ : ∃ (p : Fin 1024) (q : Fin 64), j = ix2 p q := ⟨j 0, j 1, eq_ix2 j⟩
  show k0_pay2 (F := Ideal) (iblk0 V c 1 t) (iblk0 V c 5 t) (iblk0 V c 6 t) (ix2 p q)
    = dense (V c main_v1) (V c main_arg5) (V c main_arg6) (((cfg0.win 10).blk t).view.emb (ix2 p q))
  refine (pay2_apply (iblk0 V c 1 t) (iblk0 V c 5 t) (iblk0 V c 6 t) p q).trans
    (dense_of_block (V c main_v1) (V c main_arg5) (V c main_arg6) (iblk0 V c 1 t) (iblk0 V c 5 t) (iblk0 V c 6 t) p q
      (((cfg0.win 10).blk t).view.emb (ix2 p q)) (fun k => ?_) (fun k => ?_) ?_)
  · show V c main_v1 (((cfg0.win 1).blk t).view.emb (ix2 p k)) = V c main_v1 (ix2 _ k)
    refine congrArg (V c main_v1) (funext fun a => Fin.ext ?_)
    match a with
    | ⟨0, _⟩ => show win0_1.index t (0 : Fin 2) * 1024 + 1 * p.val = win0_10.index t (0 : Fin 2) * 1024 + 1 * p.val; omega
    | ⟨1, _⟩ => show win0_1.index t (1 : Fin 2) * 1024 + 1 * k.val = k.val; omega
  · show V c main_arg5 (((cfg0.win 5).blk t).view.emb (ix2 k q)) = V c main_arg5 (ix2 k _)
    refine congrArg (V c main_arg5) (funext fun a => Fin.ext ?_)
    match a with
    | ⟨0, _⟩ => show win0_5.index t (0 : Fin 2) * 1024 + 1 * k.val = k.val; omega
    | ⟨1, _⟩ => show win0_5.index t (1 : Fin 2) * 64 + 1 * q.val = win0_10.index t (1 : Fin 2) * 64 + 1 * q.val; omega
  · show V c main_arg6 (((cfg0.win 6).blk t).view.emb (ix1 q)) = V c main_arg6 (ix1 _)
    refine congrArg (V c main_arg6) (funext fun a => Fin.ext ?_)
    match a with
    | ⟨0, _⟩ => show win0_6.index t (0 : Fin 1) * 64 + 1 * q.val = win0_10.index t (1 : Fin 2) * 64 + 1 * q.val; omega

theorem mem_blk10 (t : Fin cfg0.N) (i : S8192x64.Idx) :
    i ∈ ((cfg0.win 10).blk t).view.set ↔ ∀ a : Fin 2, win0_10.index t a * S1024x64.size a ≤ (i a).val ∧ (i a).val < win0_10.index t a * S1024x64.size a + S1024x64.size a := by
  show i ∈ ((View.whole main_v3_1).slice (win0_10.rect t)).set ↔ _
  rw [View.set_slice_whole, Rect.mem_set_unit]
  exact Iff.rfl

theorem cover10 (i : S8192x64.Idx) : ∃ t : Fin cfg0.N, (cfg0.win 10).flush t = true ∧ i ∈ ((cfg0.win 10).blk t).view.set := by
  have hi0 : (i 0).val < 8192 := (i 0).isLt
  have hi1 : (i 1).val < 64 := (i 1).isLt
  obtain ⟨t, -, ht, -⟩ := idx_onto ⟨(i 0).val / 1024, by omega⟩
  have q0 : win0_10.index t (0 : Fin 2) = (i 0).val / 1024 := congrFun ht 0
  have q1 : win0_10.index t (1 : Fin 2) = 0 := congrFun ht 1
  refine ⟨t, flush0_10 t, ?_⟩
  rw [mem_blk10]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 64 ≤ (i 1).val ∧ (i 1).val < win0_10.index t (1 : Fin 2) * 64 + 64; omega

/-- The keys' array after the call. -/
theorem final10 (c : Dev nD) : (dat0 V c).arrAt 10 cfg0.N = dense (V c main_v1) (V c main_arg5) (V c main_arg6) :=
  (dat0 V c).arrAt_eq_of_cover 10 _ (fun t _ => flushed10_eq V c t) cover10

/-! ## Values: window 11 from windows 2, 7, 8 -/

theorem flushed11_eq (c : Dev nD) (t : Fin cfg0.N) :
    (dat0 V c).flushed 11 t = ((cfg0.win 11).blk t).view.read (Elt Ideal) (dense (V c main_v2) (V c main_arg7) (V c main_arg8)) := by
  show (cfg0.win 11).cut (grid0.coords t) ((dat0 V c).after 11 t) = _
  rw [after0_11]
  unfold out0_11
  rw [View.canon_unit_zero hz2]
  simp only [View.ld_unit_zero (S := S1024x1024) hz2, View.ld_unit_zero (S := S1024x64) hz2, View.ld_unit_zero (S := S64) hz1]
  obtain ⟨-, -, ⟨eo0, eo1⟩, -, -, ⟨ex0, ex1⟩, -, -, ⟨ew0, ew1⟩, -, -, eb⟩ := idx_facts t
  funext j
  obtain ⟨p, q, rfl⟩ : ∃ (p : Fin 1024) (q : Fin 64), j = ix2 p q := ⟨j 0, j 1, eq_ix2 j⟩
  show k0_pay3 (F := Ideal) (iblk0 V c 2 t) (iblk0 V c 7 t) (iblk0 V c 8 t) (ix2 p q)
    = dense (V c main_v2) (V c main_arg7) (V c main_arg8) (((cfg0.win 11).blk t).view.emb (ix2 p q))
  refine (pay3_apply (iblk0 V c 2 t) (iblk0 V c 7 t) (iblk0 V c 8 t) p q).trans
    (dense_of_block (V c main_v2) (V c main_arg7) (V c main_arg8) (iblk0 V c 2 t) (iblk0 V c 7 t) (iblk0 V c 8 t) p q
      (((cfg0.win 11).blk t).view.emb (ix2 p q)) (fun k => ?_) (fun k => ?_) ?_)
  · show V c main_v2 (((cfg0.win 2).blk t).view.emb (ix2 p k)) = V c main_v2 (ix2 _ k)
    refine congrArg (V c main_v2) (funext fun a => Fin.ext ?_)
    match a with
    | ⟨0, _⟩ => show win0_2.index t (0 : Fin 2) * 1024 + 1 * p.val = win0_11.index t (0 : Fin 2) * 1024 + 1 * p.val; omega
    | ⟨1, _⟩ => show win0_2.index t (1 : Fin 2) * 1024 + 1 * k.val = k.val; omega
  · show V c main_arg7 (((cfg0.win 7).blk t).view.emb (ix2 k q)) = V c main_arg7 (ix2 k _)
    refine congrArg (V c main_arg7) (funext fun a => Fin.ext ?_)
    match a with
    | ⟨0, _⟩ => show win0_7.index t (0 : Fin 2) * 1024 + 1 * k.val = k.val; omega
    | ⟨1, _⟩ => show win0_7.index t (1 : Fin 2) * 64 + 1 * q.val = win0_11.index t (1 : Fin 2) * 64 + 1 * q.val; omega
  · show V c main_arg8 (((cfg0.win 8).blk t).view.emb (ix1 q)) = V c main_arg8 (ix1 _)
    refine congrArg (V c main_arg8) (funext fun a => Fin.ext ?_)
    match a with
    | ⟨0, _⟩ => show win0_8.index t (0 : Fin 1) * 64 + 1 * q.val = win0_11.index t (1 : Fin 2) * 64 + 1 * q.val; omega

theorem mem_blk11 (t : Fin cfg0.N) (i : S8192x64.Idx) :
    i ∈ ((cfg0.win 11).blk t).view.set ↔ ∀ a : Fin 2, win0_11.index t a * S1024x64.size a ≤ (i a).val ∧ (i a).val < win0_11.index t a * S1024x64.size a + S1024x64.size a := by
  show i ∈ ((View.whole main_v3_2).slice (win0_11.rect t)).set ↔ _
  rw [View.set_slice_whole, Rect.mem_set_unit]
  exact Iff.rfl

theorem cover11 (i : S8192x64.Idx) : ∃ t : Fin cfg0.N, (cfg0.win 11).flush t = true ∧ i ∈ ((cfg0.win 11).blk t).view.set := by
  have hi0 : (i 0).val < 8192 := (i 0).isLt
  have hi1 : (i 1).val < 64 := (i 1).isLt
  obtain ⟨t, -, -, ht⟩ := idx_onto ⟨(i 0).val / 1024, by omega⟩
  have q0 : win0_11.index t (0 : Fin 2) = (i 0).val / 1024 := congrFun ht 0
  have q1 : win0_11.index t (1 : Fin 2) = 0 := congrFun ht 1
  refine ⟨t, flush0_11 t, ?_⟩
  rw [mem_blk11]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 64 ≤ (i 1).val ∧ (i 1).val < win0_11.index t (1 : Fin 2) * 64 + 64; omega

/-- The values' array after the call. -/
theorem final11 (c : Dev nD) : (dat0 V c).arrAt 11 cfg0.N = dense (V c main_v2) (V c main_arg7) (V c main_arg8) :=
  (dat0 V c).arrAt_eq_of_cover 11 _ (fun t _ => flushed11_eq V c t) cover11

end Cert.KernelIdeal.Proj

end
-- ==== Proof.Spec.lean ====
/-
  One attention head over the extended reals, as functions of coordinates.

  Three projections `x ↦ x · W + b` of a batch of `N` rows give queries, keys and values with `K` features. Row `r` of
  batch `p` scores key `j` by the inner product of query `r` and key `j`, scaled; the weights are the exponentials of the
  scores. The two programs arrange the normalisation differently:

  * one scales the inner product by the constant `1/8`, forms the weighted sum of the values with the RAW exponentials
    and divides that sum ONCE by the sum of the exponentials;
  * the other divides the inner product by `√64`, divides EACH exponential by their sum, and then forms the weighted sum
    of the values.

  Everything here is stated over abstract extents; the literals stay as their binary words.
-/
import Idealize.ShloMosaic.PureOps.Ideal
import Idealize.ShloMosaic.Lib.ValueIdx

noncomputable section

namespace Cert.Attn

open Idealize.ShloMosaic Idealize.ShloMosaic.ValueIdx
open scoped BigOperators

/-! ## Arrays read by coordinates -/

variable {α : Type}

/-- A rank-3 array as a function of its three coordinates. -/
def arr3 {a b c : ℕ} (x : (⟨3, ![a, b, c]⟩ : Shape).Idx → α) : Fin a → Fin b → Fin c → α := fun p q r => x (ix3 p q r)
/-- A matrix as a function of its row and its column. -/
def arr2 {a b : ℕ} (x : (⟨2, ![a, b]⟩ : Shape).Idx → α) : Fin a → Fin b → α := fun p q => x (ix2 p q)
/-- A vector as a function of its position. -/
def arr1 {a : ℕ} (x : (⟨1, ![a]⟩ : Shape).Idx → α) : Fin a → α := fun p => x (ix1 p)

/-! ## The literals -/

/-- The scale the first arrangement multiplies by: the f32 word of `0.125`. -/
def scaleWord : EReal := Ideal.ofBits .f32 0x3E000000#32
/-- The f32 zero word, which the second arrangement's sum of exponentials starts from. -/
def zeroWord : EReal := Ideal.ofBits .f32 0x00000000#32
/-- The f32 word of `64`, whose square root the second arrangement divides by. -/
def dimWord : EReal := Ideal.ofBits .f32 0x42800000#32

/-! ## The mathematics -/

variable {B N D K : ℕ}

/-- A projection: row `r` of batch `p` times column `k` of the weight matrix, plus the bias at `k`. -/
def proj (x : Fin B → Fin N → Fin D → EReal) (W : Fin D → Fin K → EReal) (b : Fin K → EReal)
    (p : Fin B) (r : Fin N) (k : Fin K) : EReal :=
  (∑ d : Fin D, x p r d * W d k) + b k

/-- The inner product of query `r` and key `j` of batch `p`. -/
def dots (q k : Fin B → Fin N → Fin K → EReal) (p : Fin B) (r j : Fin N) : EReal :=
  ∑ t : Fin K, q p r t * k p j t

/-- The weight of key `j` for query `r` in the first arrangement: the exponential of the inner product times `1/8`. -/
def wScaled (q k : Fin B → Fin N → Fin K → EReal) (p : Fin B) (r j : Fin N) : EReal :=
  Ideal.exp (dots q k p r j * scaleWord)

/-- The weight of key `j` for query `r` in the second arrangement: the exponential of the inner product over `√64`. -/
def wDivided (q k : Fin B → Fin N → Fin K → EReal) (p : Fin B) (r j : Fin N) : EReal :=
  Ideal.exp (Ideal.div (dots q k p r j) (Ideal.sqrt dimWord))

/-- The first arrangement: the weighted sum of the values with the raw weights, divided once by the sum of the weights. -/
def attnLate (q k v : Fin B → Fin N → Fin K → EReal) (p : Fin B) (r : Fin N) (d : Fin K) : EReal :=
  Ideal.div (∑ j : Fin N, wScaled q k p r j * v p j d) (∑ j : Fin N, wScaled q k p r j)

/-- The second arrangement: each weight divided by the sum of the weights (started from the zero word), then the
    weighted sum of the values. -/
def attnEarly (q k v : Fin B → Fin N → Fin K → EReal) (p : Fin B) (r : Fin N) (d : Fin K) : EReal :=
  ∑ j : Fin N, Ideal.div (wDivided q k p r j) (zeroWord + ∑ j' : Fin N, wDivided q k p r j') * v p j d

end Cert.Attn

end
-- ==== Proof.LibDotT.lean ====
/-
  A matrix product with the right operand transposed, read at an entry.

  For a product of an [M, K] array with an [N, K] array that contracts the LAST axis of both (dimension numbers
  [1], [1], [0], [0], no batch axis) into a zero accumulator, the (p, q) entry over the extended reals is
  Σ_k l (p, k) · r (q, k). The statement takes the two facts about the dimension record that are decided by
  unfolding it at a concrete record (the operands' leading coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- The (p, q) entry of `l · rᵀ` accumulated from zero is the sum over the shared last axis. -/
theorem matmulT_zero_apply {M N K : Nat} {φ₁ φ₂ : FTy}
    (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (hl0 : ∀ j k, (d.lhsIdx j k 0).val = (j 0).val) (hr0 : ∀ j k, (d.rhsIdx j k 0).val = (j 1).val)
    (prec : Option ContractPrecision)
    (l : FVec Ideal ⟨2, ![M, K]⟩ φ₁) (r : FVec Ideal ⟨2, ![N, K]⟩ φ₂) (p : Fin M) (q : Fin N) :
    matmul d prec l r (constant (F := Ideal) ⟨2, ![M, N]⟩ .f32 0x00000000#32) (ix2 p q)
      = ∑ k : Fin K, l (ix2 p k) * r (ix2 q k) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 p k := by
    funext a; apply Fin.ext
    match a with
    | ⟨0, _⟩ => exact hl0 _ _
    | ⟨1, _⟩ => exact (d.lhsIdx_val_of_single hl _ _).trans (contrEquiv1_symm_val d K hrank hsize k)
  have e2 : d.rhsIdx (ix2 p q) ((contrEquiv1 d K hrank hsize).symm k) = ix2 q k := by
    funext a; apply Fin.ext
    match a with
    | ⟨0, _⟩ => exact hr0 _ _
    | ⟨1, _⟩ => exact (d.rhsIdx_val_of_single hr _ _).trans (contrEquiv1_symm_val d K hrank hsize k)
  rw [e1, e2]

end Cert.LibDotT

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.Region1.lean ====
/-
  What the attention call leaves in its output array.

  The call has 4 × 2 points: a batch p and a half of its 2048 query rows. At a point it holds 1024 query rows and ALL 2048
  key rows and value rows of the batch. It scores every query row against every key row (their inner product times the
  scale word), exponentiates, sums each row's weights, forms the weighted sum of the value rows with the raw weights and
  divides it by the row's sum. Query row i of half h is row h·1024 + i of the batch, and everything else a row needs is
  the whole batch; so the blocks are restrictions of ONE function of the three whole arrays, and the 8 blocks tile the
  output.
-/
import proofs.«180054_j28321014350012_2_alg».proof.Proof.Gen.KernelIdeal.Frame
import proofs.«180054_j28321014350012_2_alg».proof.Proof.Spec
import proofs.«180054_j28321014350012_2_alg».proof.Proof.LibPlainDot
import proofs.«180054_j28321014350012_2_alg».proof.Proof.LibDotT
import proofs.«180054_j28321014350012_2_alg».proof.Proof.LibRows
import proofs.«180054_j28321014350012_2_alg».proof.Proof.LibLayout
import Idealize.ShloMosaic.Lib.ValueLayout
import Idealize.ShloMosaic.Lib.Pipeline.Value
import Idealize.ShloMosaic.Lib.ValueIdx

set_option maxRecDepth 16384

noncomputable section

namespace Cert.KernelIdeal.Attend

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

/-- The weight of key row j for query row i within one batch's blocks: the exponential of their inner product times
    the scale word. -/
def wt (v0 : FVec Ideal S1x1024x64 .bf16) (v2 : FVec Ideal S1x2048x64 .bf16) (i : Fin 1024) (j : Fin 2048) : EReal :=
  Ideal.exp ((∑ k : Fin 64, v0 (ix3 (0 : Fin 1) i k) * v2 (ix3 (0 : Fin 1) j k)) * Cert.Attn.scaleWord)

/-- The scores before scaling: query row i against key row j, both blocks read without their unit axis. -/
theorem scores_apply (v0 : FVec Ideal S1x1024x64 .bf16) (v2 : FVec Ideal S1x2048x64 .bf16) (i : Fin 1024) (j : Fin 2048) :
    matmul dot_S1024x64_S2048x64_S1024x2048_1_1_0_0_n_n none (shapeCast S1024x64 v0 shapeCasts_S1x1024x64_S1024x64)
        (shapeCast S2048x64 v2 shapeCasts_S1x2048x64_S2048x64) (constant (F := Ideal) S1024x2048 .f32 0x00000000#32) (ix2 i j)
      = ∑ k : Fin 64, v0 (ix3 (0 : Fin 1) i k) * v2 (ix3 (0 : Fin 1) j k) := by
  refine (Cert.LibDotT.matmulT_zero_apply dot_S1024x64_S2048x64_S1024x2048_1_1_0_0_n_n rfl rfl rfl rfl
    (fun _ _ => rfl) (fun _ _ => rfl) none _ _ i j).trans ?_
  exact Finset.sum_congr rfl fun k _ => congrArg₂ (· * ·) (shapeCast_1ab_ab_apply v0 _ i k) (shapeCast_1ab_ab_apply v2 _ j k)

/-- The exponentials: entry (i, j) is the weight of key j for query i. -/
theorem weights_apply (v0 : FVec Ideal S1x1024x64 .bf16) (v2 : FVec Ideal S1x2048x64 .bf16) (i : Fin 1024) (j : Fin 2048) :
    exp (mulf (matmul dot_S1024x64_S2048x64_S1024x2048_1_1_0_0_n_n none (shapeCast S1024x64 v0 shapeCasts_S1x1024x64_S1024x64)
        (shapeCast S2048x64 v2 shapeCasts_S1x2048x64_S2048x64) (constant (F := Ideal) S1024x2048 .f32 0x00000000#32))
      (broadcast S1024x2048 (Scalar.ofBits (F := Ideal) .f32 0x3E000000#32))) (ix2 i j) = wt v0 v2 i j := by
  show Ideal.exp (_ * Ideal.ofBits .f32 0x3E000000#32) = _
  unfold wt Cert.Attn.scaleWord
  exact congrArg Ideal.exp (congrArg (· * _) (scores_apply v0 v2 i j))

/-- What one point stores at (u, i, d): the weighted sum of the value rows' entry d with the raw weights, over the sum
    of the weights. -/
theorem pay_apply (v0 : FVec Ideal S1x1024x64 .bf16) (v2 v4 : FVec Ideal S1x2048x64 .bf16) (u : Fin 1) (i : Fin 1024) (d : Fin 64) :
    k1_pay1 (F := Ideal) v0 v2 v4 (ix3 u i d)
      = Ideal.div (∑ j : Fin 2048, wt v0 v2 i j * v4 (ix3 (0 : Fin 1) j d)) (∑ j : Fin 2048, wt v0 v2 i j) := by
  unfold k1_pay1
  refine (shapeCast_ab_1ab_apply _ _ u i d).trans ?_
  refine (divf_apply _ _ _).trans (congrArg₂ Ideal.div ?_ ?_)
  · refine (Cert.LibPlainDot.matmul_plain_apply dot_S1024x2048_S2048x64_S1024x64_1_0_0_1_n_n rfl rfl rfl rfl rfl rfl none _ _ i d).trans ?_
    exact Finset.sum_congr rfl fun j _ => congrArg₂ (· * ·) (weights_apply v0 v2 i j) (shapeCast_1ab_ab_apply v4 _ j d)
  · refine (broadcastTo_a1_ab_apply _ _ i d).trans ?_
    refine (shapeCast_a_a1_apply _ _ i (0 : Fin 1)).trans ?_
    refine (rowSum_apply _ _ _ _ _ i).trans ?_
    exact Finset.sum_congr rfl fun j _ => weights_apply v0 v2 i j

/-- Attention over the three whole arrays: entry (p, r, d). -/
def attn (Q K Vv : FVec Ideal S4x2048x64 .bf16) : FVec Ideal S4x2048x64 .f32 :=
  fun e => Cert.Attn.attnLate (Cert.Attn.arr3 Q) (Cert.Attn.arr3 K) (Cert.Attn.arr3 Vv)
    (⟨(e 0).val, (e 0).isLt⟩ : Fin 4) (⟨(e 1).val, (e 1).isLt⟩ : Fin 2048) (⟨(e 2).val, (e 2).isLt⟩ : Fin 64)

/-- At explicit coordinates. -/
theorem attn_ix3 (Q K Vv : FVec Ideal S4x2048x64 .bf16) (p : Fin 4) (r : Fin 2048) (d : Fin 64) :
    attn Q K Vv (ix3 p r d) = Cert.Attn.attnLate (Cert.Attn.arr3 Q) (Cert.Attn.arr3 K) (Cert.Attn.arr3 Vv) p r d := rfl

/-- A block's attention is the arrays', at the block's rows: when query row i of the block is row `e 1` of batch `e 0`,
    the key and value blocks are that batch's rows, what a point stores at (i, d) is the whole attention at `e`. -/
theorem attn_of_block (Q K Vv : FVec Ideal S4x2048x64 .bf16) (v0 : FVec Ideal S1x1024x64 .bf16)
    (v2 v4 : FVec Ideal S1x2048x64 .bf16) (i : Fin 1024) (d : Fin 64) (e : S4x2048x64.Idx)
    (h0 : ∀ k : Fin 64, v0 (ix3 (0 : Fin 1) i k) = Q (ix3 (⟨(e 0).val, (e 0).isLt⟩ : Fin 4) (⟨(e 1).val, (e 1).isLt⟩ : Fin 2048) k))
    (h2 : ∀ (j : Fin 2048) (k : Fin 64), v2 (ix3 (0 : Fin 1) j k) = K (ix3 (⟨(e 0).val, (e 0).isLt⟩ : Fin 4) j k))
    (h4 : ∀ j : Fin 2048, v4 (ix3 (0 : Fin 1) j d) = Vv (ix3 (⟨(e 0).val, (e 0).isLt⟩ : Fin 4) j (⟨(e 2).val, (e 2).isLt⟩ : Fin 64))) :
    Ideal.div (∑ j : Fin 2048, wt v0 v2 i j * v4 (ix3 (0 : Fin 1) j d)) (∑ j : Fin 2048, wt v0 v2 i j) = attn Q K Vv e := by
  have hw : ∀ j : Fin 2048, wt v0 v2 i j
      = Cert.Attn.wScaled (Cert.Attn.arr3 Q) (Cert.Attn.arr3 K) (⟨(e 0).val, (e 0).isLt⟩ : Fin 4) (⟨(e 1).val, (e 1).isLt⟩ : Fin 2048) j := by
    intro j
    unfold wt Cert.Attn.wScaled Cert.Attn.dots Cert.Attn.arr3
    exact congrArg Ideal.exp (congrArg (· * _) (Finset.sum_congr rfl fun k _ => by rw [h0 k, h2 j k]))
  unfold attn Cert.Attn.attnLate
  refine congrArg₂ Ideal.div (Finset.sum_congr rfl fun j _ => ?_) (Finset.sum_congr rfl fun j _ => hw j)
  rw [hw j, h4 j]
  rfl

theorem hz3 : (![0, 0, 0] : Fin 3 → Nat) = fun _ => 0 := funext fun a => by fin_cases a <;> rfl

/-! ## Where the blocks sit -/

/-- Decided over the 8 points: the query block moves with the output block; the key and value blocks follow the output's
    batch and are whole on the other axes; the output's feature block is the only one. -/
theorem idx_facts : ∀ t : Fin cfg1.N,
    (win1_0.index t (0 : Fin 3) = win1_3.index t (0 : Fin 3) ∧ win1_0.index t (1 : Fin 3) = win1_3.index t (1 : Fin 3)
      ∧ win1_0.index t (2 : Fin 3) = 0)
    ∧ (win1_1.index t (0 : Fin 3) = win1_3.index t (0 : Fin 3) ∧ win1_1.index t (1 : Fin 3) = 0 ∧ win1_1.index t (2 : Fin 3) = 0)
    ∧ (win1_2.index t (0 : Fin 3) = win1_3.index t (0 : Fin 3) ∧ win1_2.index t (1 : Fin 3) = 0 ∧ win1_2.index t (2 : Fin 3) = 0)
    ∧ win1_3.index t (2 : Fin 3) = 0 :=
  (by decide +kernel : ∀ t : Fin grid1.N, _)

/-- Every (batch, half) is some point's output block. -/
theorem idx_onto : ∀ (q0 : Fin 4) (q1 : Fin 2), ∃ t : Fin cfg1.N, win1_3.index t = ![q0.val, q1.val, 0] :=
  (by decide +kernel : ∀ (q0 : Fin 4) (q1 : Fin 2), ∃ t : Fin grid1.N, win1_3.index t = ![q0.val, q1.val, 0])

variable (V : (c : Dev nD) → (b : Ref sig .tc) → Buf (Elt Ideal) ((c : Thread nD τ).loc b))

/-- What point t writes back is block t of the attention over the arrays the call finds. -/
theorem flushed3_eq (c : Dev nD) (t : Fin cfg1.N) :
    (dat1 V c).flushed 3 t = ((cfg1.win 3).blk t).view.read (Elt Ideal) (attn (V c main_v4) (V c main_v5) (V c main_v6)) := by
  show (cfg1.win 3).cut (grid1.coords t) ((dat1 V c).after 3 t) = _
  rw [after1_3]
  unfold out1_3
  rw [View.canon_unit_zero hz3]
  simp only [View.ld_unit_zero (S := S1x1024x64) hz3, View.ld_unit_zero (S := S1x2048x64) hz3]
  obtain ⟨⟨eq0, eq1, eq2⟩, ⟨ek0, ek1, ek2⟩, ⟨ev0, ev1, ev2⟩, eo2⟩ := idx_facts t
  funext y
  obtain ⟨u, i, d, rfl⟩ : ∃ (u : Fin 1) (i : Fin 1024) (d : Fin 64), y = ix3 u i d := ⟨y 0, y 1, y 2, eq_ix3 y⟩
  have hu : u.val = 0 := by have := u.isLt; omega
  show k1_pay1 (F := Ideal) (iblk1 V c 0 t) (iblk1 V c 1 t) (iblk1 V c 2 t) (ix3 u i d)
    = attn (V c main_v4) (V c main_v5) (V c main_v6) (((cfg1.win 3).blk t).view.emb (ix3 u i d))
  refine (pay_apply (iblk1 V c 0 t) (iblk1 V c 1 t) (iblk1 V c 2 t) u i d).trans
    (attn_of_block (V c main_v4) (V c main_v5) (V c main_v6) (iblk1 V c 0 t) (iblk1 V c 1 t) (iblk1 V c 2 t) i d
      (((cfg1.win 3).blk t).view.emb (ix3 u i d)) (fun k => ?_) (fun j k => ?_) (fun j => ?_))
  · show V c main_v4 (((cfg1.win 0).blk t).view.emb (ix3 (0 : Fin 1) i k)) = V c main_v4 (ix3 _ _ k)
    refine congrArg (V c main_v4) (funext fun a => Fin.ext ?_)
    match a with
    | ⟨0, _⟩ => show win1_0.index t (0 : Fin 3) * 1 + 1 * (0 : Fin 1).val = win1_3.index t (0 : Fin 3) * 1 + 1 * u.val; rw [hu, eq0]; rfl
    | ⟨1, _⟩ => show win1_0.index t (1 : Fin 3) * 1024 + 1 * i.val = win1_3.index t (1 : Fin 3) * 1024 + 1 * i.val; rw [eq1]
    | ⟨2, _⟩ => show win1_0.index t (2 : Fin 3) * 64 + 1 * k.val = k.val; omega
  · show V c main_v5 (((cfg1.win 1).blk t).view.emb (ix3 (0 : Fin 1) j k)) = V c main_v5 (ix3 _ j k)
    refine congrArg (V c main_v5) (funext fun a => Fin.ext ?_)
    match a with
    | ⟨0, _⟩ => show win1_1.index t (0 : Fin 3) * 1 + 1 * (0 : Fin 1).val = win1_3.index t (0 : Fin 3) * 1 + 1 * u.val; rw [hu, ek0]; rfl
    | ⟨1, _⟩ => show win1_1.index t (1 : Fin 3) * 2048 + 1 * j.val = j.val; omega
    | ⟨2, _⟩ => show win1_1.index t (2 : Fin 3) * 64 + 1 * k.val = k.val; omega
  · show V c main_v6 (((cfg1.win 2).blk t).view.emb (ix3 (0 : Fin 1) j d)) = V c main_v6 (ix3 _ j _)
    refine congrArg (V c main_v6) (funext fun a => Fin.ext ?_)
    match a with
    | ⟨0, _⟩ => show win1_2.index t (0 : Fin 3) * 1 + 1 * (0 : Fin 1).val = win1_3.index t (0 : Fin 3) * 1 + 1 * u.val; rw [hu, ev0]; rfl
    | ⟨1, _⟩ => show win1_2.index t (1 : Fin 3) * 2048 + 1 * j.val = j.val; omega
    | ⟨2, _⟩ => show win1_2.index t (2 : Fin 3) * 64 + 1 * d.val = win1_3.index t (2 : Fin 3) * 64 + 1 * d.val; omega

/-- An index of the array is in point t's block iff each coordinate is in the block's range on its axis. -/
theorem mem_blk3 (t : Fin cfg1.N) (e : S4x2048x64.Idx) :
    e ∈ ((cfg1.win 3).blk t).view.set ↔ ∀ a : Fin 3, win1_3.index t a * S1x1024x64.size a ≤ (e a).val ∧ (e a).val < win1_3.index t a * S1x1024x64.size a + S1x1024x64.size a := by
  show e ∈ ((View.whole main_v7).slice (win1_3.rect t)).set ↔ _
  rw [View.set_slice_whole, Rect.mem_set_unit]
  exact Iff.rfl

/-- Entry (p, r, d) lies in the block of the point whose batch is p and whose half is r / 1024. -/
theorem cover3 (e : S4x2048x64.Idx) : ∃ t : Fin cfg1.N, (cfg1.win 3).flush t = true ∧ e ∈ ((cfg1.win 3).blk t).view.set := by
  have he0 : (e 0).val < 4 := (e 0).isLt
  have he1 : (e 1).val < 2048 := (e 1).isLt
  have he2 : (e 2).val < 64 := (e 2).isLt
  obtain ⟨t, ht⟩ := idx_onto ⟨(e 0).val, he0⟩ ⟨(e 1).val / 1024, by omega⟩
  have q0 : win1_3.index t (0 : Fin 3) = (e 0).val := congrFun ht 0
  have q1 : win1_3.index t (1 : Fin 3) = (e 1).val / 1024 := congrFun ht 1
  have q2 : win1_3.index t (2 : Fin 3) = 0 := congrFun ht 2
  refine ⟨t, flush1_3 t, ?_⟩
  rw [mem_blk3]
  intro a
  match a with
  | ⟨0, _⟩ => show win1_3.index t (0 : Fin 3) * 1 ≤ (e 0).val ∧ (e 0).val < win1_3.index t (0 : Fin 3) * 1 + 1; omega
  | ⟨1, _⟩ => show win1_3.index t (1 : Fin 3) * 1024 ≤ (e 1).val ∧ (e 1).val < win1_3.index t (1 : Fin 3) * 1024 + 1024; omega
  | ⟨2, _⟩ => show win1_3.index t (2 : Fin 3) * 64 ≤ (e 2).val ∧ (e 2).val < win1_3.index t (2 : Fin 3) * 64 + 64; omega

/-- The output array after the call. -/
theorem final3 (c : Dev nD) : (dat1 V c).arrAt 3 cfg1.N = attn (V c main_v4) (V c main_v5) (V c main_v6) :=
  (dat1 V c).arrAt_eq_of_cover 3 _ (fun t _ => flushed3_eq V c t) cover3

end Cert.KernelIdeal.Attend

end
-- ==== Proof.Host.lean ====
/-
  The reshapes around the two calls, read at the boundaries between @main's segments.

  Before the projection call the three [4, 2048, 1024] inputs are re-laid as [8192, 1024] arrays and nothing else is written;
  between the calls the three [8192, 64] projections are re-laid as [4, 2048, 64] arrays. So at the projection call's entry
  the row arrays are casts of the arguments and the weights and biases are the arguments themselves, and at the attention
  call's entry its three inputs are casts of what the projection call left.
-/
import proofs.«180054_j28321014350012_2_alg».proof.Proof.Gen.KernelIdeal.Frame
import Idealize.ShloMosaic.Lib.StableHlo.Run
import Idealize.ShloMosaic.PureOps.Ideal

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- At the projection call's entry the query rows are the first argument re-laid. -/
theorem V1_v0 (c : Dev nD) : (V1 m ρ c main_v0 : FVec Ideal S8192x1024 .f32)
    = shapeCast S8192x1024 (m ((c : Thread nD τ).loc main_arg0)) shapeCasts_S4x2048x1024_S8192x1024 := by
  show StableHlo.after hostOps0 (W0 m ρ c) (Proc.devRef .tc main_v0) = _
  after_results
  all_goals rfl

theorem V1_v1 (c : Dev nD) : (V1 m ρ c main_v1 : FVec Ideal S8192x1024 .f32)
    = shapeCast S8192x1024 (m ((c : Thread nD τ).loc main_arg1)) shapeCasts_S4x2048x1024_S8192x1024 := by
  show StableHlo.after hostOps0 (W0 m ρ c) (Proc.devRef .tc main_v1) = _
  after_results
  all_goals rfl

theorem V1_v2 (c : Dev nD) : (V1 m ρ c main_v2 : FVec Ideal S8192x1024 .f32)
    = shapeCast S8192x1024 (m ((c : Thread nD τ).loc main_arg2)) shapeCasts_S4x2048x1024_S8192x1024 := by
  show StableHlo.after hostOps0 (W0 m ρ c) (Proc.devRef .tc main_v2) = _
  after_results
  all_goals rfl

/-- The weights and biases are untouched by the first reshapes. -/
theorem V1_arg3 (c : Dev nD) : V1 m ρ c main_arg3 = m ((c : Thread nD τ).loc main_arg3) := by
  show StableHlo.after hostOps0 (W0 m ρ c) (Proc.devRef .tc main_arg3) = _
  after_results
  all_goals rfl
theorem V1_arg4 (c : Dev nD) : V1 m ρ c main_arg4 = m ((c : Thread nD τ).loc main_arg4) := by
  show StableHlo.after hostOps0 (W0 m ρ c) (Proc.devRef .tc main_arg4) = _
  after_results
  all_goals rfl
theorem V1_arg5 (c : Dev nD) : V1 m ρ c main_arg5 = m ((c : Thread nD τ).loc main_arg5) := by
  show StableHlo.after hostOps0 (W0 m ρ c) (Proc.devRef .tc main_arg5) = _
  after_results
  all_goals rfl
theorem V1_arg6 (c : Dev nD) : V1 m ρ c main_arg6 = m ((c : Thread nD τ).loc main_arg6) := by
  show StableHlo.after hostOps0 (W0 m ρ c) (Proc.devRef .tc main_arg6) = _
  after_results
  all_goals rfl
theorem V1_arg7 (c : Dev nD) : V1 m ρ c main_arg7 = m ((c : Thread nD τ).loc main_arg7) := by
  show StableHlo.after hostOps0 (W0 m ρ c) (Proc.devRef .tc main_arg7) = _
  after_results
  all_goals rfl
theorem V1_arg8 (c : Dev nD) : V1 m ρ c main_arg8 = m ((c : Thread nD τ).loc main_arg8) := by
  show StableHlo.after hostOps0 (W0 m ρ c) (Proc.devRef .tc main_arg8) = _
  after_results
  all_goals rfl

/-- At the attention call's entry its three inputs are the projection call's outputs re-laid. -/
theorem V3_v4 (c : Dev nD) : (V3 m ρ c main_v4 : FVec Ideal S4x2048x64 .bf16)
    = shapeCast S4x2048x64 (W2 m ρ c (Proc.devRef .tc main_v3_0)) shapeCasts_S8192x64_S4x2048x64 := by
  show StableHlo.after hostOps1 (W2 m ρ c) (Proc.devRef .tc main_v4) = _
  after_results
  all_goals rfl
theorem V3_v5 (c : Dev nD) : (V3 m ρ c main_v5 : FVec Ideal S4x2048x64 .bf16)
    = shapeCast S4x2048x64 (W2 m ρ c (Proc.devRef .tc main_v3_1)) shapeCasts_S8192x64_S4x2048x64 := by
  show StableHlo.after hostOps1 (W2 m ρ c) (Proc.devRef .tc main_v5) = _
  after_results
  all_goals rfl
theorem V3_v6 (c : Dev nD) : (V3 m ρ c main_v6 : FVec Ideal S4x2048x64 .bf16)
    = shapeCast S4x2048x64 (W2 m ρ c (Proc.devRef .tc main_v3_2)) shapeCasts_S8192x64_S4x2048x64 := by
  show StableHlo.after hostOps1 (W2 m ρ c) (Proc.devRef .tc main_v6) = _
  after_results
  all_goals rfl

end Cert.KernelIdeal.Between

end
-- ==== Proof.LibMerge.lean ====
/-
  Two leading axes merged into one, and one leading axis split into two, read at explicit coordinates.

  An array `[n, a, b]` laid out row-major is the same sequence of numbers as the array `[n * a, b]`: entry `(p, q, j)`
  of the first sits at position `(p * a + q) * b + j`, which is where entry `(p * a + q, j)` of the second sits. So a cast
  from either shape to the other keeps every entry, the merged row being `r = p * a + q`.
-/
import Idealize.ShloMosaic.Lib.Pipeline.Value
import Idealize.ShloMosaic.Lib.ValueIdx

namespace Idealize.ShloMosaic.ValueIdx

variable {α : Type}

/-- An `[n, a, b]` array cast to `[m, b]` reads, at `(r, j)` with `r = p * a + q`, the operand at `(p, q, j)`. -/
theorem shapeCast_nab_mb_apply {n a b m : ℕ} (x : (⟨3, ![n, a, b]⟩ : Shape).Idx → α)
    (h : (⟨3, ![n, a, b]⟩ : Shape).ShapeCasts ⟨2, ![m, b]⟩) (p : Fin n) (q : Fin a) (j : Fin b) (r : Fin m)
    (hr : r.val = p.val * a + q.val) : shapeCast ⟨2, ![m, b]⟩ x h (ix2 r j) = x (ix3 p q j) :=
  shapeCast_apply x h _ _ (by
    rw [Shape.rowMajor_val_three, Shape.rowMajor_val_two]
    show (p.val * a + q.val) * b + j.val = r.val * b + j.val
    rw [hr])

/-- An `[m, b]` array cast to `[n, a, b]` reads, at `(p, q, j)`, the operand at `(r, j)` with `r = p * a + q`. -/
theorem shapeCast_mb_nab_apply {n a b m : ℕ} (x : (⟨2, ![m, b]⟩ : Shape).Idx → α)
    (h : (⟨2, ![m, b]⟩ : Shape).ShapeCasts ⟨3, ![n, a, b]⟩) (p : Fin n) (q : Fin a) (j : Fin b) (r : Fin m)
    (hr : r.val = p.val * a + q.val) : shapeCast ⟨3, ![n, a, b]⟩ x h (ix3 p q j) = x (ix2 r j) :=
  shapeCast_apply x h _ _ (by
    rw [Shape.rowMajor_val_three, Shape.rowMajor_val_two]
    show r.val * b + j.val = (p.val * a + q.val) * b + j.val
    rw [hr])

end Idealize.ShloMosaic.ValueIdx
-- ==== Proof.KernelValue.lean ====
/-
  The idealized kernel's result as one function of its arguments.

  Reading the segments back from the end: the result is the attention call's output, which is attention over the call's
  three input arrays; those are the projection call's three outputs with rows (p·2048 + r) named (p, r); each of those is a
  dense layer of an input re-laid the same way and the weights and bias themselves. So entry (p, r, d) of the result is
  the late-normalised attention of the three projections of the arguments.
-/
import proofs.«180054_j28321014350012_2_alg».proof.Proof.KernelRun
import proofs.«180054_j28321014350012_2_alg».proof.Proof.Region0
import proofs.«180054_j28321014350012_2_alg».proof.Proof.Region1
import proofs.«180054_j28321014350012_2_alg».proof.Proof.Host
import proofs.«180054_j28321014350012_2_alg».proof.Proof.Spec
import proofs.«180054_j28321014350012_2_alg».proof.Proof.LibMerge

set_option maxRecDepth 16384

noncomputable section

namespace Cert.KernelIdeal.Whole

open Cert.KernelIdeal Cert.KernelIdeal.Gen Cert.Attn
open Idealize.ShloMosaic Idealize.ShloMosaic.ValueIdx Idealize.ShloMosaic.TcCoe Idealize.SL.Sem
open scoped BigOperators

variable (m : (ℓ : Loc nD τ sig) → Buf (Elt Ideal) ℓ) (ρ : Dev nD → PrngReg)

/-- What the projection call leaves: three dense layers of the arrays it finds. -/
theorem left_q (c : Dev nD) : (W2 m ρ c (Proc.devRef .tc main_v3_0) : FVec Ideal S8192x64 .bf16)
    = Proj.dense (V1 m ρ c main_v0) (V1 m ρ c main_arg3) (V1 m ρ c main_arg4) :=
  (W2_arr m ρ c 9).trans (Proj.final9 (V1 m ρ) c)
theorem left_k (c : Dev nD) : (W2 m ρ c (Proc.devRef .tc main_v3_1) : FVec Ideal S8192x64 .bf16)
    = Proj.dense (V1 m ρ c main_v1) (V1 m ρ c main_arg5) (V1 m ρ c main_arg6) :=
  (W2_arr m ρ c 10).trans (Proj.final10 (V1 m ρ) c)
theorem left_v (c : Dev nD) : (W2 m ρ c (Proc.devRef .tc main_v3_2) : FVec Ideal S8192x64 .bf16)
    = Proj.dense (V1 m ρ c main_v2) (V1 m ρ c main_arg7) (V1 m ρ c main_arg8) :=
  (W2_arr m ρ c 11).trans (Proj.final11 (V1 m ρ) c)

/-- Row (p, r) of a [4, 2048, ·] array is row p·2048 + r of its [8192, ·] re-laying. -/
theorem row_lt (p : Fin 4) (r : Fin 2048) : p.val * 2048 + r.val < 8192 := by
  have hp := p.isLt; have hr := r.isLt; omega

/-- The queries the attention call finds, at (p, r, k): the projection of the first argument. -/
theorem q_apply (c : Dev nD) (p : Fin 4) (r : Fin 2048) (k : Fin 64) :
    arr3 (V3 m ρ c main_v4 : FVec Ideal S4x2048x64 .bf16) p r k
      = proj (arr3 (m ((c : Thread nD τ).loc main_arg0))) (arr2 (m ((c : Thread nD τ).loc main_arg3)))
          (arr1 (m ((c : Thread nD τ).loc main_arg4))) p r k := by
  show (V3 m ρ c main_v4 : FVec Ideal S4x2048x64 .bf16) (ix3 p r k) = _
  rw [Between.V3_v4]
  refine (shapeCast_mb_nab_apply _ _ p r k ⟨p.val * 2048 + r.val, row_lt p r⟩ rfl).trans ?_
  rw [left_q, Proj.dense_ix2, Between.V1_arg3, Between.V1_arg4, Between.V1_v0]
  unfold proj arr3 arr2 arr1
  refine congrArg (· + _) (Finset.sum_congr rfl fun d _ => congrArg (· * _) ?_)
  exact shapeCast_nab_mb_apply _ _ p r d ⟨p.val * 2048 + r.val, row_lt p r⟩ rfl

/-- The keys the attention call finds, at (p, r, k): the projection of the second argument. -/
theorem k_apply (c : Dev nD) (p : Fin 4) (r : Fin 2048) (k : Fin 64) :
    arr3 (V3 m ρ c main_v5 : FVec Ideal S4x2048x64 .bf16) p r k
      = proj (arr3 (m ((c : Thread nD τ).loc main_arg1))) (arr2 (m ((c : Thread nD τ).loc main_arg5)))
          (arr1 (m ((c : Thread nD τ).loc main_arg6))) p r k := by
  show (V3 m ρ c main_v5 : FVec Ideal S4x2048x64 .bf16) (ix3 p r k) = _
  rw [Between.V3_v5]
  refine (shapeCast_mb_nab_apply _ _ p r k ⟨p.val * 2048 + r.val, row_lt p r⟩ rfl).trans ?_
  rw [left_k, Proj.dense_ix2, Between.V1_arg5, Between.V1_arg6, Between.V1_v1]
  unfold proj arr3 arr2 arr1
  refine congrArg (· + _) (Finset.sum_congr rfl fun d _ => congrArg (· * _) ?_)
  exact shapeCast_nab_mb_apply _ _ p r d ⟨p.val * 2048 + r.val, row_lt p r⟩ rfl

/-- The values the attention call finds, at (p, r, k): the projection of the third argument. -/
theorem v_apply (c : Dev nD) (p : Fin 4) (r : Fin 2048) (k : Fin 64) :
    arr3 (V3 m ρ c main_v6 : FVec Ideal S4x2048x64 .bf16) p r k
      = proj (arr3 (m ((c : Thread nD τ).loc main_arg2))) (arr2 (m ((c : Thread nD τ).loc main_arg7)))
          (arr1 (m ((c : Thread nD τ).loc main_arg8))) p r k := by
  show (V3 m ρ c main_v6 : FVec Ideal S4x2048x64 .bf16) (ix3 p r k) = _
  rw [Between.V3_v6]
  refine (shapeCast_mb_nab_apply _ _ p r k ⟨p.val * 2048 + r.val, row_lt p r⟩ rfl).trans ?_
  rw [left_v, Proj.dense_ix2, Between.V1_arg7, Between.V1_arg8, Between.V1_v2]
  unfold proj arr3 arr2 arr1
  refine congrArg (· + _) (Finset.sum_congr rfl fun d _ => congrArg (· * _) ?_)
  exact shapeCast_nab_mb_apply _ _ p r d ⟨p.val * 2048 + r.val, row_lt p r⟩ rfl

/-- THE RESULT at (p, r, d): the attention of the three projections of the arguments, normalised after the weighted sum. -/
theorem result_apply (c : Dev nD) (p : Fin 4) (r : Fin 2048) (d : Fin 64) :
    (W4 m ρ c (Proc.devRef .tc main_v7) : FVec Ideal S4x2048x64 .f32) (ix3 p r d)
      = attnLate
          (proj (arr3 (m ((c : Thread nD τ).loc main_arg0))) (arr2 (m ((c : Thread nD τ).loc main_arg3))) (arr1 (m ((c : Thread nD τ).loc main_arg4))))
          (proj (arr3 (m ((c : Thread nD τ).loc main_arg1))) (arr2 (m ((c : Thread nD τ).loc main_arg5))) (arr1 (m ((c : Thread nD τ).loc main_arg6))))
          (proj (arr3 (m ((c : Thread nD τ).loc main_arg2))) (arr2 (m ((c : Thread nD τ).loc main_arg7))) (arr1 (m ((c : Thread nD τ).loc main_arg8))))
          p r d := by
  rw [Named.result_arr, Attend.final3 (V3 m ρ) c, Attend.attn_ix3]
  have hq : arr3 (V3 m ρ c main_v4 : FVec Ideal S4x2048x64 .bf16)
      = proj (arr3 (m ((c : Thread nD τ).loc main_arg0))) (arr2 (m ((c : Thread nD τ).loc main_arg3))) (arr1 (m ((c : Thread nD τ).loc main_arg4))) :=
    funext fun p => funext fun r => funext fun k => q_apply m ρ c p r k
  have hk : arr3 (V3 m ρ c main_v5 : FVec Ideal S4x2048x64 .bf16)
      = proj (arr3 (m ((c : Thread nD τ).loc main_arg1))) (arr2 (m ((c : Thread nD τ).loc main_arg5))) (arr1 (m ((c : Thread nD τ).loc main_arg6))) :=
    funext fun p => funext fun r => funext fun k => k_apply m ρ c p r k
  have hv : arr3 (V3 m ρ c main_v6 : FVec Ideal S4x2048x64 .bf16)
      = proj (arr3 (m ((c : Thread nD τ).loc main_arg2))) (arr2 (m ((c : Thread nD τ).loc main_arg7))) (arr1 (m ((c : Thread nD τ).loc main_arg8))) :=
    funext fun p => funext fun r => funext fun k => v_apply m ρ c p r k
  rw [hq, hk, hv]

end Cert.KernelIdeal.Whole

end
-- ==== Proof.RefValue.lean ====
/-
  The reference's result at an index is the second arrangement of one attention head, applied to the three projections.

  The reference forms queries, keys and values as x · W + b, scores query r against key j by their inner product divided
  by the square root of 64, exponentiates, divides each exponential by the row's sum of exponentials (a sum started from
  the zero word), and contracts the normalised weights with the values. Read one operation at a time at explicit
  coordinates, each stage is the matching piece of the specification: the projection, the inner product, the weight,
  the row sum, the normalised weight, the result. The only work is identifying the operand indices each operation
  reads (composed from broadcasts and contraction dimension numbers) with the index built from the coordinates.
-/
import proofs.«180054_j28321014350012_2_alg».proof.Proof.Gen.ReferenceIdeal.Read
import proofs.«180054_j28321014350012_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Cert.Attn Idealize.ShloMosaic Idealize.ShloMosaic.ValueIdx
open scoped BigOperators

/-! ## The three projections -/

/-! ### The query projection -/

theorem lidx_q (p : Fin 4) (r : Fin 2048) (k : Fin 64) (t : Fin 1024) :
    lidx_main_v0 (ix3 p r k) t = ix3 p r t := funext fun a => by match a with | ⟨0, _⟩ => rfl | ⟨1, _⟩ => rfl | ⟨2, _⟩ => rfl
theorem ridx_q (p : Fin 4) (r : Fin 2048) (k : Fin 64) (t : Fin 1024) :
    ridx_main_v0 (ix3 p r k) t = ix2 t k := funext fun a => by match a with | ⟨0, _⟩ => rfl | ⟨1, _⟩ => rfl
theorem bidx_q (p : Fin 4) (r : Fin 2048) (k : Fin 64) :
    idx_main_v1 (idx_main_v2 (ix3 p r k)) = ix1 k := funext fun a => by match a with | ⟨0, _⟩ => rfl

/-- Entry (p, r, k) of the query array is the projection of row r of batch p: the contraction with column k of the
    weight matrix, plus the bias at k. -/
theorem proj_q (x0 : (⟨S4x2048x1024, .f32⟩ : BufTy).Contents (Elt Ideal)) (x3 : (⟨S1024x64, .f32⟩ : BufTy).Contents (Elt Ideal)) (x4 : (⟨S64, .f32⟩ : BufTy).Contents (Elt Ideal)) (p : Fin 4) (r : Fin 2048) (k : Fin 64) :
    val_main_v3 (F := Ideal) x0 x3 x4 (ix3 p r k) = proj (arr3 x0) (arr2 x3) (arr1 x4) p r k := by
  rw [val_main_v3_apply, val_main_v0_apply, val_main_v2_apply, val_main_v1_apply, bidx_q]
  unfold proj arr3 arr2 arr1
  rw [Ideal.addf_def]
  refine congrArg (· + x4 (ix1 k)) (Finset.sum_congr rfl fun t _ => ?_)
  rw [lidx_q, ridx_q]

/-! ### The key projection -/

theorem lidx_k (p : Fin 4) (r : Fin 2048) (k : Fin 64) (t : Fin 1024) :
    lidx_main_v4 (ix3 p r k) t = ix3 p r t := funext fun a => by match a with | ⟨0, _⟩ => rfl | ⟨1, _⟩ => rfl | ⟨2, _⟩ => rfl
theorem ridx_k (p : Fin 4) (r : Fin 2048) (k : Fin 64) (t : Fin 1024) :
    ridx_main_v4 (ix3 p r k) t = ix2 t k := funext fun a => by match a with | ⟨0, _⟩ => rfl | ⟨1, _⟩ => rfl
theorem bidx_k (p : Fin 4) (r : Fin 2048) (k : Fin 64) :
    idx_main_v5 (idx_main_v6 (ix3 p r k)) = ix1 k := funext fun a => by match a with | ⟨0, _⟩ => rfl

/-- Entry (p, r, k) of the key array is the projection of row r of batch p: the contraction with column k of the
    weight matrix, plus the bias at k. -/
theorem proj_k (x1 : (⟨S4x2048x1024, .f32⟩ : BufTy).Contents (Elt Ideal)) (x5 : (⟨S1024x64, .f32⟩ : BufTy).Contents (Elt Ideal)) (x6 : (⟨S64, .f32⟩ : BufTy).Contents (Elt Ideal)) (p : Fin 4) (r : Fin 2048) (k : Fin 64) :
    val_main_v7 (F := Ideal) x1 x5 x6 (ix3 p r k) = proj (arr3 x1) (arr2 x5) (arr1 x6) p r k := by
  rw [val_main_v7_apply, val_main_v4_apply, val_main_v6_apply, val_main_v5_apply, bidx_k]
  unfold proj arr3 arr2 arr1
  rw [Ideal.addf_def]
  refine congrArg (· + x6 (ix1 k)) (Finset.sum_congr rfl fun t _ => ?_)
  rw [lidx_k, ridx_k]

/-! ### The value projection -/

theorem lidx_v (p : Fin 4) (r : Fin 2048) (k : Fin 64) (t : Fin 1024) :
    lidx_main_v8 (ix3 p r k) t = ix3 p r t := funext fun a => by match a with | ⟨0, _⟩ => rfl | ⟨1, _⟩ => rfl | ⟨2, _⟩ => rfl
theorem ridx_v (p : Fin 4) (r : Fin 2048) (k : Fin 64) (t : Fin 1024) :
    ridx_main_v8 (ix3 p r k) t = ix2 t k := funext fun a => by match a with | ⟨0, _⟩ => rfl | ⟨1, _⟩ => rfl
theorem bidx_v (p : Fin 4) (r : Fin 2048) (k : Fin 64) :
    idx_main_v9 (idx_main_v10 (ix3 p r k)) = ix1 k := funext fun a => by match a with | ⟨0, _⟩ => rfl

/-- Entry (p, r, k) of the value array is the projection of row r of batch p: the contraction with column k of the
    weight matrix, plus the bias at k. -/
theorem proj_v (x2 : (⟨S4x2048x1024, .f32⟩ : BufTy).Contents (Elt Ideal)) (x7 : (⟨S1024x64, .f32⟩ : BufTy).Contents (Elt Ideal)) (x8 : (⟨S64, .f32⟩ : BufTy).Contents (Elt Ideal)) (p : Fin 4) (r : Fin 2048) (k : Fin 64) :
    val_main_v11 (F := Ideal) x2 x7 x8 (ix3 p r k) = proj (arr3 x2) (arr2 x7) (arr1 x8) p r k := by
  rw [val_main_v11_apply, val_main_v8_apply, val_main_v10_apply, val_main_v9_apply, bidx_v]
  unfold proj arr3 arr2 arr1
  rw [Ideal.addf_def]
  refine congrArg (· + x8 (ix1 k)) (Finset.sum_congr rfl fun t _ => ?_)
  rw [lidx_v, ridx_v]

/-! ## The scores and the weights -/

theorem lidx_s (p : Fin 4) (r j : Fin 2048) (t : Fin 64) : lidx_main_v12 (ix3 p r j) t = ix3 p r t := funext fun a => by match a with | ⟨0, _⟩ => rfl | ⟨1, _⟩ => rfl | ⟨2, _⟩ => rfl
theorem ridx_s (p : Fin 4) (r j : Fin 2048) (t : Fin 64) : ridx_main_v12 (ix3 p r j) t = ix3 p j t := funext fun a => by match a with | ⟨0, _⟩ => rfl | ⟨1, _⟩ => rfl | ⟨2, _⟩ => rfl

/-- Entry (p, r, j) of the score array before scaling is the inner product of query r and key j of batch p. -/
theorem score (x0 x1 : (⟨S4x2048x1024, .f32⟩ : BufTy).Contents (Elt Ideal)) (x3 : (⟨S1024x64, .f32⟩ : BufTy).Contents (Elt Ideal)) (x4 : (⟨S64, .f32⟩ : BufTy).Contents (Elt Ideal)) (x5 : (⟨S1024x64, .f32⟩ : BufTy).Contents (Elt Ideal)) (x6 : (⟨S64, .f32⟩ : BufTy).Contents (Elt Ideal)) (p : Fin 4) (r j : Fin 2048) :
    val_main_v12 (F := Ideal) x0 x1 x3 x4 x5 x6 (ix3 p r j) = dots (proj (arr3 x0) (arr2 x3) (arr1 x4)) (proj (arr3 x1) (arr2 x5) (arr1 x6)) p r j := by
  rw [val_main_v12_apply]
  unfold dots
  refine Finset.sum_congr rfl fun t _ => ?_
  rw [lidx_s, ridx_s, proj_q, proj_k]

/-- Entry (p, r, j) of the exponentials is the weight of key j for query r: the exponential of the inner product over
    the square root of the word of 64. -/
theorem weight (x0 x1 : (⟨S4x2048x1024, .f32⟩ : BufTy).Contents (Elt Ideal)) (x3 : (⟨S1024x64, .f32⟩ : BufTy).Contents (Elt Ideal)) (x4 : (⟨S64, .f32⟩ : BufTy).Contents (Elt Ideal)) (x5 : (⟨S1024x64, .f32⟩ : BufTy).Contents (Elt Ideal)) (x6 : (⟨S64, .f32⟩ : BufTy).Contents (Elt Ideal)) (p : Fin 4) (r j : Fin 2048) :
    val_main_v16 (F := Ideal) x0 x1 x3 x4 x5 x6 (ix3 p r j) = wDivided (proj (arr3 x0) (arr2 x3) (arr1 x4)) (proj (arr3 x1) (arr2 x5) (arr1 x6)) p r j := by
  rw [val_main_v16_apply, val_main_v15_apply, val_main_v14_apply, val_main_v13_apply, val_main_cst_apply, score,
    Ideal.hostUnary_exp_def, Ideal.hostDivf_def, Ideal.hostUnary_sqrt_def, Ideal.ofBits_def]
  unfold wDivided dimWord
  rfl

/-! ## The row sums and the normalised weights -/

theorem idx_sum (p : Fin 4) (r j : Fin 2048) : idx_main_v17 (ix2 p r) j = ix3 p r j := funext fun a => by match a with | ⟨0, _⟩ => rfl | ⟨1, _⟩ => rfl | ⟨2, _⟩ => rfl
theorem idx_bcast (p : Fin 4) (r j : Fin 2048) : idx_main_v18 (idx_main_v19 (ix3 p r j)) = ix2 p r := funext fun a => by match a with | ⟨0, _⟩ => rfl | ⟨1, _⟩ => rfl

/-- Entry (p, r) of the row sums is the zero word plus the sum of the weights of row r. -/
theorem rowsum (x0 x1 : (⟨S4x2048x1024, .f32⟩ : BufTy).Contents (Elt Ideal)) (x3 : (⟨S1024x64, .f32⟩ : BufTy).Contents (Elt Ideal)) (x4 : (⟨S64, .f32⟩ : BufTy).Contents (Elt Ideal)) (x5 : (⟨S1024x64, .f32⟩ : BufTy).Contents (Elt Ideal)) (x6 : (⟨S64, .f32⟩ : BufTy).Contents (Elt Ideal)) (p : Fin 4) (r : Fin 2048) :
    val_main_v17 (F := Ideal) x0 x1 x3 x4 x5 x6 (ix2 p r)
      = zeroWord + ∑ j : Fin 2048, wDivided (proj (arr3 x0) (arr2 x3) (arr1 x4)) (proj (arr3 x1) (arr2 x5) (arr1 x6)) p r j := by
  rw [val_main_v17_apply, val_main_cst_0_apply, Ideal.ofBits_def]
  unfold zeroWord
  refine congrArg (Ideal.ofBits .f32 0x00000000#32 + ·) (Finset.sum_congr rfl fun j _ => ?_)
  rw [idx_sum, weight]

/-- Entry (p, r, j) of the normalised weights is the weight divided by the row sum. -/
theorem normw (x0 x1 : (⟨S4x2048x1024, .f32⟩ : BufTy).Contents (Elt Ideal)) (x3 : (⟨S1024x64, .f32⟩ : BufTy).Contents (Elt Ideal)) (x4 : (⟨S64, .f32⟩ : BufTy).Contents (Elt Ideal)) (x5 : (⟨S1024x64, .f32⟩ : BufTy).Contents (Elt Ideal)) (x6 : (⟨S64, .f32⟩ : BufTy).Contents (Elt Ideal)) (p : Fin 4) (r j : Fin 2048) :
    val_main_v20 (F := Ideal) x0 x1 x3 x4 x5 x6 (ix3 p r j)
      = Ideal.div (wDivided (proj (arr3 x0) (arr2 x3) (arr1 x4)) (proj (arr3 x1) (arr2 x5) (arr1 x6)) p r j) (zeroWord + ∑ j' : Fin 2048, wDivided (proj (arr3 x0) (arr2 x3) (arr1 x4)) (proj (arr3 x1) (arr2 x5) (arr1 x6)) p r j') := by
  rw [val_main_v20_apply, val_main_v19_apply, val_main_v18_apply, idx_bcast, weight, rowsum, Ideal.hostDivf_def]

/-! ## The result -/

theorem lidx_o (p : Fin 4) (r : Fin 2048) (d : Fin 64) (j : Fin 2048) : lidx_main_v21 (ix3 p r d) j = ix3 p r j := funext fun a => by match a with | ⟨0, _⟩ => rfl | ⟨1, _⟩ => rfl | ⟨2, _⟩ => rfl
theorem ridx_o (p : Fin 4) (r : Fin 2048) (d : Fin 64) (j : Fin 2048) : ridx_main_v21 (ix3 p r d) j = ix3 p j d := funext fun a => by match a with | ⟨0, _⟩ => rfl | ⟨1, _⟩ => rfl | ⟨2, _⟩ => rfl

/-- The reference's result at (p, r, d) is the second arrangement applied to the three projections. -/
theorem ref_apply (x0 x1 x2 : (⟨S4x2048x1024, .f32⟩ : BufTy).Contents (Elt Ideal)) (x3 : (⟨S1024x64, .f32⟩ : BufTy).Contents (Elt Ideal)) (x4 : (⟨S64, .f32⟩ : BufTy).Contents (Elt Ideal)) (x5 : (⟨S1024x64, .f32⟩ : BufTy).Contents (Elt Ideal)) (x6 : (⟨S64, .f32⟩ : BufTy).Contents (Elt Ideal)) (x7 : (⟨S1024x64, .f32⟩ : BufTy).Contents (Elt Ideal)) (x8 : (⟨S64, .f32⟩ : BufTy).Contents (Elt Ideal))
    (p : Fin 4) (r : Fin 2048) (d : Fin 64) :
    val_main_v21 (F := Ideal) x0 x1 x2 x3 x4 x5 x6 x7 x8 (ix3 p r d)
      = attnEarly (proj (arr3 x0) (arr2 x3) (arr1 x4)) (proj (arr3 x1) (arr2 x5) (arr1 x6)) (proj (arr3 x2) (arr2 x7) (arr1 x8)) p r d := by
  rw [val_main_v21_apply]
  unfold attnEarly
  refine Finset.sum_congr rfl fun j _ => ?_
  rw [lidx_o, ridx_o, normw, proj_v]

end Cert.ReferenceIdeal.RefValue

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  Under the printed "every float input is finite" precondition every entry of every argument is a real number.

  The precondition is nine conjuncts joined by bitwise "and" on one-bit words. Each conjunct reduces, by "and" from
  the bit 1 over every axis, the array of bits "max x (-x) is below the word of +infinity". A one-bit "and" is 1 only
  when both operands are; a reduction by "and" that is 1 met a 1 at every position; and an extended real whose absolute
  value lies below +infinity is a real number.
-/
import proofs.«180054_j28321014350012_2_alg».proof.Proof.Gen.Pre_finite_inputs
import proofs.«180054_j28321014350012_2_alg».proof.Proof.LibSums
import Idealize.ShloMosaic.Lib.ReduceAll
import Idealize.ShloMosaic.Lib.ValueIdx
import Idealize.ShloMosaic.PureOps.Ideal

noncomputable section

namespace Cert.Attn.Finite

open Idealize.ShloMosaic Idealize.ShloMosaic.ValueIdx Cert.Pre_finite_inputs

/-- The rank-0 index set has one element. -/
instance : Subsingleton S_.Idx := ⟨fun a b => funext fun d => d.elim0⟩

/-- One conjunct, for any operand shape: if the "and" over all axes of the bits "absolute value below the word of
    +infinity" is 1, every entry of the array is a real number. -/
theorem all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ a : ℝ, x i = a := fun i =>
  Cert.LibSums.real_of_finite_bit (x i) (Host.reduce_andi_all _ _ hr hu j e i)

/-- The nine conjuncts together. -/
theorem inputs_real (x0 x1 x2 : FVec Ideal S4x2048x1024 .f32) (x3 : FVec Ideal S1024x64 .f32) (x4 : FVec Ideal S64 .f32)
    (x5 : FVec Ideal S1024x64 .f32) (x6 : FVec Ideal S64 .f32) (x7 : FVec Ideal S1024x64 .f32) (x8 : FVec Ideal S64 .f32)
    (h : Cert.Pre_finite_inputs.fn (F := Ideal) x0 x1 x2 x3 x4 x5 x6 x7 x8 = fun _ => 1#1) :
    (∀ i, ∃ a : ℝ, x0 i = a) ∧ (∀ i, ∃ a : ℝ, x1 i = a) ∧ (∀ i, ∃ a : ℝ, x2 i = a) ∧ (∀ i, ∃ a : ℝ, x3 i = a) ∧
    (∀ i, ∃ a : ℝ, x4 i = a) ∧ (∀ i, ∃ a : ℝ, x5 i = a) ∧ (∀ i, ∃ a : ℝ, x6 i = a) ∧ (∀ i, ∃ a : ℝ, x7 i = a) ∧
    (∀ i, ∃ a : ℝ, x8 i = a) := by
  have h0 := congrFun h ix0
  dsimp only [fn, fn_part1, fn_part2, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x0 _ _ _ _ e0, all_real x1 _ _ _ _ e1, all_real x2 _ _ _ _ e2, all_real x3 _ _ _ _ e3,
    all_real x4 _ _ _ _ e4, all_real x5 _ _ _ _ e5, all_real x6 _ _ _ _ e6, all_real x7 _ _ _ _ e7,
    all_real x8 _ _ _ _ e8⟩

end Cert.Attn.Finite

end
-- ==== Proof.Law.lean ====
/-
  The algebraic law behind one attention head, over the extended reals.

  The three literal words denote 1/8, 0 and 64, and the square root of 64 is 8. A projection of real data by a real
  matrix with a real bias is real. With real queries, keys and values every inner product is a real number s, so
  scaling s by 1/8 and dividing s by the square root of 64 give the same real s / 8: both arrangements use ONE
  weight e = exp (s / 8) per key, a positive real. With at least one key the sum E of the weights is a positive
  real, hence nonzero, and the sum started from zero is the same E. What is left is the identity of real numbers
  (Σ e v) / E = Σ (e / E) v: a divisor moved across a finite sum. Finiteness is used only there and in E ≠ 0.
-/
import proofs.«180054_j28321014350012_2_alg».proof.Proof.Spec

noncomputable section

namespace Cert.Attn

open Idealize.ShloMosaic
open scoped BigOperators

/-! ## The literals -/

/-- The word 0x3E000000 has exponent field 124 and an empty fraction: 2 ^ (124 - 127) = 1/8. -/
theorem scaleWord_eq : scaleWord = ((1 / 8 : ℝ) : EReal) := by
  unfold scaleWord
  simp [Ideal.ofBits, Ideal.ieee, -EReal.coe_mul]; norm_num

/-- The all-zero word is the subnormal with an empty fraction: 0. -/
theorem zeroWord_eq : zeroWord = 0 := by
  unfold zeroWord
  simp [Ideal.ofBits, Ideal.ieee]

/-- The word 0x42800000 has exponent field 133 and an empty fraction: 2 ^ (133 - 127) = 64. -/
theorem dimWord_eq : dimWord = ((64 : ℝ) : EReal) := by
  unfold dimWord
  simp [Ideal.ofBits, Ideal.ieee, -EReal.coe_mul]; norm_num

/-- 64 is not negative and is 8 · 8, so its square root is 8. -/
theorem sqrt_dimWord : Ideal.sqrt dimWord = ((8 : ℝ) : EReal) := by
  rw [dimWord_eq, Ideal.sqrt_coe, if_neg (by norm_num)]
  rw [show (64 : ℝ) = 8 * 8 by norm_num, Real.sqrt_mul_self (by norm_num)]

/-! ## Coercions through finite sums and quotients -/

/-- The inclusion of the reals in the extended reals is additive, so it passes through a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing a real by a nonzero real in the extended reals is the real quotient. -/
theorem div_coe_coe (a : ℝ) {e : ℝ} (he : e ≠ 0) :
    Ideal.div (a : EReal) (e : EReal) = ((a / e : ℝ) : EReal) := by
  rw [Ideal.div_coe he, ← EReal.coe_mul, mul_one_div]

/-! ## Real data stays real -/

theorem proj_real {B N D K : ℕ} (x : Fin B → Fin N → Fin D → EReal) (W : Fin D → Fin K → EReal) (b : Fin K → EReal)
    (hx : ∀ p r d, ∃ a : ℝ, x p r d = a) (hW : ∀ d k, ∃ a : ℝ, W d k = a) (hb : ∀ k, ∃ a : ℝ, b k = a) :
    ∀ p r k, ∃ a : ℝ, proj x W b p r k = a := by
  intro p r k
  choose xr hx using hx
  choose Wr hW using hW
  choose br hb using hb
  refine ⟨(∑ d : Fin D, xr p r d * Wr d k) + br k, ?_⟩
  unfold proj
  simp only [hx, hW, hb]
  rw [EReal.coe_add, coe_sum]
  simp only [EReal.coe_mul]

/-- The inner product of real rows is the real inner product. -/
theorem dots_coe {B N K : ℕ} (q k : Fin B → Fin N → Fin K → ℝ) (p : Fin B) (r j : Fin N) :
    dots (fun p r t => (q p r t : EReal)) (fun p r t => (k p r t : EReal)) p r j
      = ((∑ t : Fin K, q p r t * k p j t : ℝ) : EReal) := by
  unfold dots
  rw [coe_sum]
  simp only [EReal.coe_mul]

/-- Scaling the real inner product s by 1/8 and taking the exponential gives exp (s / 8). -/
theorem wScaled_coe {B N K : ℕ} (q k : Fin B → Fin N → Fin K → ℝ) (p : Fin B) (r j : Fin N) :
    wScaled (fun p r t => (q p r t : EReal)) (fun p r t => (k p r t : EReal)) p r j
      = ((Real.exp ((∑ t : Fin K, q p r t * k p j t) / 8) : ℝ) : EReal) := by
  unfold wScaled
  rw [dots_coe, scaleWord_eq, ← EReal.coe_mul, Ideal.exp_coe, mul_one_div]

/-- Dividing the real inner product s by √64 = 8 and taking the exponential gives the same exp (s / 8). -/
theorem wDivided_coe {B N K : ℕ} (q k : Fin B → Fin N → Fin K → ℝ) (p : Fin B) (r j : Fin N) :
    wDivided (fun p r t => (q p r t : EReal)) (fun p r t => (k p r t : EReal)) p r j
      = ((Real.exp ((∑ t : Fin K, q p r t * k p j t) / 8) : ℝ) : EReal) := by
  unfold wDivided
  rw [dots_coe, sqrt_dimWord, div_coe_coe _ (by norm_num), Ideal.exp_coe]

/-! ## The two normalisations agree -/

/-- For real weights e with nonzero sum and real values v: the weighted sum divided once by the sum of the weights
    is the sum of the values weighted by each weight over that sum (the sum of the weights started from 0). -/
theorem late_eq_early {ι : Type*} [Fintype ι] (e v : ι → ℝ) (hE : (∑ j, e j) ≠ 0) :
    Ideal.div (∑ j, (e j : EReal) * (v j : EReal)) (∑ j, (e j : EReal))
      = ∑ j, Ideal.div (e j : EReal) (0 + ∑ j', (e j' : EReal)) * (v j : EReal) := by
  rw [zero_add, ← coe_sum]
  simp only [← EReal.coe_mul, div_coe_coe _ hE]
  rw [← coe_sum, ← coe_sum, div_coe_coe _ hE, Finset.sum_div]
  congr 1
  refine Finset.sum_congr rfl fun j _ => ?_
  rw [div_mul_eq_mul_div]

theorem attn_eq {B N K : ℕ} (hN : 0 < N) (q k v : Fin B → Fin N → Fin K → EReal)
    (hq : ∀ p r t, ∃ a : ℝ, q p r t = a) (hk : ∀ p r t, ∃ a : ℝ, k p r t = a) (hv : ∀ p r t, ∃ a : ℝ, v p r t = a)
    (p : Fin B) (r : Fin N) (d : Fin K) : attnLate q k v p r d = attnEarly q k v p r d := by
  choose qr hq using hq
  choose kr hk using hk
  choose vr hv using hv
  obtain rfl : q = fun p r t => (qr p r t : EReal) := by funext p r t; exact hq p r t
  obtain rfl : k = fun p r t => (kr p r t : EReal) := by funext p r t; exact hk p r t
  obtain rfl : v = fun p r t => (vr p r t : EReal) := by funext p r t; exact hv p r t
  unfold attnLate attnEarly
  simp only [wScaled_coe, wDivided_coe, zeroWord_eq]
  haveI : Nonempty (Fin N) := ⟨⟨0, hN⟩⟩
  refine late_eq_early (fun j => Real.exp ((∑ t : Fin K, qr p r t * kr p j t) / 8)) (fun j => vr p j d) ?_
  exact (Finset.sum_pos (fun j _ => Real.exp_pos _) Finset.univ_nonempty).ne'

end Cert.Attn

end
-- ==== Proof.Bridge.lean ====
/-
  The two idealized programs end with the same result.

  At entry (p, r, d) the reference's result is the attention of the three projections with each weight normalised BEFORE
  the weighted sum and the inner products divided by √64; the kernel's is the same attention with the weighted sum
  normalised AFTERWARDS and the inner products multiplied by 1/8. Under the precondition every argument entry is a real
  number, so the projections are real, the weights are positive reals, their sum is a nonzero real, and dividing each
  term by it is dividing the sum by it; √64 is 8. That is the one place finiteness is used.
-/
import proofs.«180054_j28321014350012_2_alg».proof.Defs
import proofs.«180054_j28321014350012_2_alg».proof.Proof.KernelValue
import proofs.«180054_j28321014350012_2_alg».proof.Proof.RefValue
import proofs.«180054_j28321014350012_2_alg».proof.Proof.Finite
import proofs.«180054_j28321014350012_2_alg».proof.Proof.Law
import proofs.«180054_j28321014350012_2_alg».proof.Proof.Gen.KernelIdeal
import proofs.«180054_j28321014350012_2_alg».proof.Proof.Gen.Pre_finite_inputs

set_option maxRecDepth 16384

noncomputable section

namespace Cert.Bridge

open Idealize.ShloMosaic Idealize.ShloMosaic.ValueIdx Idealize.ShloMosaic.TcCoe Idealize.SL.Sem Cert.Attn

variable (m : (ℓ : Loc Cert.KernelIdeal.nD Cert.KernelIdeal.τ Cert.KernelIdeal.sig) → Buf (Elt Ideal) ℓ)
  (ρ : Dev Cert.KernelIdeal.nD → PrngReg)

/-- Under the precondition the reference's result term of the kernel's arguments is the array the kernel leaves. -/
theorem result_eq (hpre : Cert.Pre_KernelIdeal m) (c : Dev Cert.KernelIdeal.nD) :
    Cert.ReferenceIdeal.Read.val_main_v21 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.Gen.W4 m ρ c (Proc.devRef .tc Cert.KernelIdeal.main_v7) := by
  funext i
  obtain ⟨p, r, d, rfl⟩ : ∃ (p : Fin 4) (r : Fin 2048) (d : Fin 64), i = ix3 p r d := ⟨i 0, i 1, i 2, eq_ix3 i⟩
  obtain ⟨h0, h1, h2, h3, h4, h5, h6, h7, h8⟩ := Cert.Attn.Finite.inputs_real _ _ _ _ _ _ _ _ _ (hpre c)
  refine (Cert.ReferenceIdeal.RefValue.ref_apply _ _ _ _ _ _ _ _ _ p r d).trans ?_
  refine Eq.trans ?_ (Cert.KernelIdeal.Whole.result_apply m ρ c p r d).symm
  exact (attn_eq (by decide) _ _ _
    (proj_real _ _ _ (fun _ _ _ => h0 _) (fun _ _ => h3 _) (fun _ => h4 _))
    (proj_real _ _ _ (fun _ _ _ => h1 _) (fun _ _ => h5 _) (fun _ => h6 _))
    (proj_real _ _ _ (fun _ _ _ => h2 _) (fun _ _ => h7 _) (fun _ => h8 _)) p r d).symm

end Cert.Bridge

end
-- ==== Proof.lean ====
/-
  One attention head, computed by two pipelined calls, against its plain reference — over the extended reals.

  THE KERNEL projects queries, keys and values with three dense layers (call 1, eight blocks of 1024 rows), then, per batch
  and half of the query rows (call 2), scores the queries against all the batch's keys as inner product × 1/8,
  exponentiates, forms the weighted sum of the values with the RAW weights and divides it once by the row's sum of weights.
  THE REFERENCE computes the same projections, divides the inner products by √64, exponentiates, divides EACH weight by the
  row's sum, and then forms the weighted sum of the values.

  A change of float format is the identity on the extended reals, a product into a zero accumulator is the plain sum of
  products, so the projections agree term by term. √64 = 8, so the two scalings agree. What is left is moving a divisor
  across a finite sum, which is a law of the reals but not of the extended reals: it is the one place the precondition
  (every input finite) is used — it makes the projections real, the weights positive reals and their sum a nonzero real.

  The three frames are the programs' own: the two kernels' are generated; the reference's is its run with the result
  dropped. No rewrite was applied by the idealization, so there is nothing to preserve.
-/
import proofs.«180054_j28321014350012_2_alg».proof.Defs
import proofs.«180054_j28321014350012_2_alg».proof.Proof.Gen.Kernel
import proofs.«180054_j28321014350012_2_alg».proof.Proof.Gen.Kernel.Frame
import proofs.«180054_j28321014350012_2_alg».proof.Proof.Gen.KernelIdeal
import proofs.«180054_j28321014350012_2_alg».proof.Proof.Gen.KernelIdeal.Frame
import proofs.«180054_j28321014350012_2_alg».proof.Proof.Gen.ReferenceIdeal
import proofs.«180054_j28321014350012_2_alg».proof.Proof.Gen.ReferenceIdeal.Run
import proofs.«180054_j28321014350012_2_alg».proof.Proof.Gen.ReferenceIdeal.Read
import proofs.«180054_j28321014350012_2_alg».proof.Proof.Gen.Pre_finite_inputs
import proofs.«180054_j28321014350012_2_alg».proof.Proof.KernelRun
import proofs.«180054_j28321014350012_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs run; the kernel ends with its result buffer at the last boundary's contents, the reference
    with its result at its operations' term of arguments that agree with the kernel's — the same array under the
    precondition. -/
theorem algebraic : Cert.algebraic_KernelIdeal_ReferenceIdeal := by
  intro m ρ m' ρ' hpre hagree
  refine ⟨fun c => Cert.KernelIdeal.Gen.W4 m ρ c (Proc.devRef .tc Cert.KernelIdeal.main_v7),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v21_eq, a0, a1, a2, a3, a4, a5, a6, a7, a8]
  exact Cert.Bridge.result_eq m ρ hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
